-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x12 : Shape := ⟨2, ![50000, 12]⟩
abbrev S2x1600000 : Shape := ⟨2, ![2, 1600000]⟩
abbrev S13x13 : Shape := ⟨2, ![13, 13]⟩
abbrev S128x12 : Shape := ⟨2, ![128, 12]⟩
abbrev S128 : Shape := ⟨1, ![128]⟩
abbrev S128x128 : Shape := ⟨2, ![128, 128]⟩
abbrev S13x128 : Shape := ⟨2, ![13, 128]⟩
abbrev S13 : Shape := ⟨1, ![13]⟩
abbrev S_ : Shape := ⟨0, ![]⟩

class Facts : Prop where
  bcast_S_S50000x12 : S_.BroadcastsInDim S50000x12 (![] : Fin 0 → Fin S50000x12.rank)
  reducesTo_S50000x12_S_d0_1 : S50000x12.ReducesTo [0, 1] S_
  h_S_ : 0 < S_.numel
  bcast_S_S13x13 : S_.BroadcastsInDim S13x13 (![] : Fin 0 → Fin S13x13.rank)
  reducesTo_S13x13_S_d0_1 : S13x13.ReducesTo [0, 1] S_
  bcast_S_S128x12 : S_.BroadcastsInDim S128x12 (![] : Fin 0 → Fin S128x12.rank)
  reducesTo_S128x12_S_d0_1 : S128x12.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S13x128 : S_.BroadcastsInDim S13x128 (![] : Fin 0 → Fin S13x128.rank)
  reducesTo_S13x128_S_d0_1 : S13x128.ReducesTo [0, 1] S_
  bcast_S_S13 : S_.BroadcastsInDim S13 (![] : Fin 0 → Fin S13.rank)
  reducesTo_S13_S_d0 : S13.ReducesTo [0] S_

variable [Facts]

def fn_part2 {F : FTy → Type} [FloatOps F] (main_arg8 : FVec F S13 .f32) (main_v33 : IVec S_ 1) : IVec S_ 1 :=
  let main_v34 : FVec F S13 .f32 := Host.absf main_arg8
  let main_cst_12 : FVec F S_ .f32 := constant S_ .f32 0x7F800000#32
  let main_v35 : FVec F S13 .f32 := broadcastInDim S13 ![] bcast_S_S13 main_cst_12
  let main_v36 : IVec S13 1 := cmpf .olt main_v34 main_v35
  let main_c_13 : IVec S_ 1 := constantI S_ 1 1#1
  let main_v37 : IVec S_ 1 := (fun x v => Host.reduce IntOp.andi x v reducesTo_S13_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S13x128 .f32) (main_arg8 : FVec F S13 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S13x128 .f32 := Host.absf main_arg7
  let main_cst_10 : FVec F S_ .f32 := constant S_ .f32 0x7F800000#32
  let main_v30 : FVec F S13x128 .f32 := broadcastInDim S13x128 ![] bcast_S_S13x128 main_cst_10
  let main_v31 : IVec S13x128 1 := cmpf .olt main_v29 main_v30
  let main_c_11 : IVec S_ 1 := constantI S_ 1 1#1
  let main_v32 : IVec S_ 1 := (fun x v => Host.reduce IntOp.andi x v reducesTo_S13x128_S_d0_1 h_S_) main_v31 main_c_11
  let main_v33 : IVec S_ 1 := andi main_v28 main_v32
  fn_part2 (F := F) main_arg8 main_v33

def fn {F : FTy → Type} [FloatOps F] (main_arg0 : FVec F S50000x12 .f32) (main_arg1 : IVec S2x1600000 32) (main_arg2 : FVec F S13x13 .f32) (main_arg3 : FVec F S128x12 .f32) (main_arg4 : FVec F S128 .f32) (main_arg5 : FVec F S128x128 .f32) (main_arg6 : FVec F S128 .f32) (main_arg7 : FVec F S13x128 .f32) (main_arg8 : FVec F S13 .f32) : IVec S_ 1 :=
  let main_v0 : FVec F S50000x12 .f32 := Host.absf main_arg0
  let main_cst : FVec F S_ .f32 := constant S_ .f32 0x7F800000#32
  let main_v1 : FVec F S50000x12 .f32 := broadcastInDim S50000x12 ![] bcast_S_S50000x12 main_cst
  let main_v2 : IVec S50000x12 1 := cmpf .olt main_v0 main_v1
  let main_c : IVec S_ 1 := constantI S_ 1 1#1
  let main_v3 : IVec S_ 1 := (fun x v => Host.reduce IntOp.andi x v reducesTo_S50000x12_S_d0_1 h_S_) main_v2 main_c
  let main_v4 : FVec F S13x13 .f32 := Host.absf main_arg2
  let main_cst_0 : FVec F S_ .f32 := constant S_ .f32 0x7F800000#32
  let main_v5 : FVec F S13x13 .f32 := broadcastInDim S13x13 ![] bcast_S_S13x13 main_cst_0
  let main_v6 : IVec S13x13 1 := cmpf .olt main_v4 main_v5
  let main_c_1 : IVec S_ 1 := constantI S_ 1 1#1
  let main_v7 : IVec S_ 1 := (fun x v => Host.reduce IntOp.andi x v reducesTo_S13x13_S_d0_1 h_S_) main_v6 main_c_1
  let main_v8 : IVec S_ 1 := andi main_v3 main_v7
  let main_v9 : FVec F S128x12 .f32 := Host.absf main_arg3
  let main_cst_2 : FVec F S_ .f32 := constant S_ .f32 0x7F800000#32
  let main_v10 : FVec F S128x12 .f32 := broadcastInDim S128x12 ![] bcast_S_S128x12 main_cst_2
  let main_v11 : IVec S128x12 1 := cmpf .olt main_v9 main_v10
  let main_c_3 : IVec S_ 1 := constantI S_ 1 1#1
  let main_v12 : IVec S_ 1 := (fun x v => Host.reduce IntOp.andi x v reducesTo_S128x12_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x12 : Shape := ⟨2, ![50000, 12]⟩
abbrev S2x1600000 : Shape := ⟨2, ![2, 1600000]⟩
abbrev S13x13 : Shape := ⟨2, ![13, 13]⟩
abbrev S128x12 : Shape := ⟨2, ![128, 12]⟩
abbrev S128 : Shape := ⟨1, ![128]⟩
abbrev S128x128 : Shape := ⟨2, ![128, 128]⟩
abbrev S13x128 : Shape := ⟨2, ![13, 128]⟩
abbrev S13 : Shape := ⟨1, ![13]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S12x128 : Shape := ⟨2, ![12, 128]⟩
abbrev S1x128 : Shape := ⟨2, ![1, 128]⟩
abbrev S50000x128 : Shape := ⟨2, ![50000, 128]⟩
abbrev S5000x12 : Shape := ⟨2, ![5000, 12]⟩
abbrev S5000x128 : Shape := ⟨2, ![5000, 128]⟩
abbrev S1650000x128 : Shape := ⟨2, ![1650000, 128]⟩
abbrev S128x13 : Shape := ⟨2, ![128, 13]⟩
abbrev S1x13 : Shape := ⟨2, ![1, 13]⟩
abbrev S50000x13 : Shape := ⟨2, ![50000, 13]⟩
abbrev S5000x13 : Shape := ⟨2, ![5000, 13]⟩
abbrev S1650000x13 : Shape := ⟨2, ![1650000, 13]⟩
abbrev S2000x13 : Shape := ⟨2, ![2000, 13]⟩
abbrev S2000x1x13 : Shape := ⟨3, ![2000, 1, 13]⟩
abbrev S1x13x13 : Shape := ⟨3, ![1, 13, 13]⟩
abbrev S2000x13x13 : Shape := ⟨3, ![2000, 13, 13]⟩

abbrev nBuf : Space → Nat
  | .hbm => 100
  | .vmem => 23
  | .smem => 0
  | _ => 0

abbrev bufTy : (tb : Table) → Fin (tcTables nBuf tb) → BufTy
  | .hbm, ⟨0, _⟩ => ⟨S50000x12, .f32⟩
  | .hbm, ⟨1, _⟩ => ⟨S2x1600000, .i32⟩
  | .hbm, ⟨2, _⟩ => ⟨S13x13, .f32⟩
  | .hbm, ⟨3, _⟩ => ⟨S128x12, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S13x128, .f32⟩
  | .hbm, ⟨8, _⟩ => ⟨S13, .f32⟩
  | .hbm, ⟨9, _⟩ => ⟨S50000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S1x1600000, .i32⟩
  | .hbm, ⟨14, _⟩ => ⟨S1600000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S1650000, .i32⟩
  | .hbm, ⟨25, _⟩ => ⟨S1650000, .i1⟩
  | .hbm, ⟨26, _⟩ => ⟨S_, .i32⟩
  | .hbm, ⟨27, _⟩ => ⟨S1650000, .i32⟩
  | .hbm, ⟨28, _⟩ => ⟨S1650000, .i32⟩
  | .hbm, ⟨29, _⟩ => ⟨S1650000, .i32⟩
  | .hbm, ⟨30, _⟩ => ⟨S1650000x1, .i32⟩
  | .hbm, ⟨31, _⟩ => ⟨S1650000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S1650000, .f32⟩
  | .hbm, ⟨42, _⟩ => ⟨S12x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000x128, .f32⟩
  | .hbm, ⟨54, _⟩ => ⟨S1650000x1, .f32⟩
  | .hbm, ⟨55, _⟩ => ⟨S1650000x128, .f32⟩
  | .hbm, ⟨56, _⟩ => ⟨S1650000x128, .f32⟩
  | .hbm, ⟨57, _⟩ => ⟨S_, .f32⟩
  | .hbm, ⟨58, _⟩ => ⟨S50000x128, .f32⟩
  | .hbm, ⟨59, _⟩ => ⟨S1650000x1, .i32⟩
  | .hbm, ⟨60, _⟩ => ⟨S50000x128, .f32⟩
  | .hbm, ⟨61, _⟩ => ⟨S128x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S1650000, .i32⟩
  | .hbm, ⟨66, _⟩ => ⟨S1650000, .i1⟩
  | .hbm, ⟨67, _⟩ => ⟨S_, .i32⟩
  | .hbm, ⟨68, _⟩ => ⟨S1650000, .i32⟩
  | .hbm, ⟨69, _⟩ => ⟨S1650000, .i32⟩
  | .hbm, ⟨70, _⟩ => ⟨S1650000, .i32⟩
  | .hbm, ⟨71, _⟩ => ⟨S1650000x1, .i32⟩
  | .hbm, ⟨72, _⟩ => ⟨S1650000x128, .f32⟩
  | .hbm, ⟨73, _⟩ => ⟨S1650000x1, .f32⟩
  | .hbm, ⟨74, _⟩ => ⟨S1650000x128, .f32⟩
  | .hbm, ⟨75, _⟩ => ⟨S1650000x128, .f32⟩
  | .hbm, ⟨76, _⟩ => ⟨S_, .f32⟩
  | .hbm, ⟨77, _⟩ => ⟨S50000x128, .f32⟩
  | .hbm, ⟨78, _⟩ => ⟨S1650000x1, .i32⟩
  | .hbm, ⟨79, _⟩ => ⟨S50000x128, .f32⟩
  | .hbm, ⟨80, _⟩ => ⟨S128x13, .f32⟩
  | .hbm, ⟨81, _⟩ => ⟨S1x13, .f32⟩
  | .hbm, ⟨82, _⟩ => ⟨S50000x13, .f32⟩
  | .hbm, ⟨83, _⟩ => ⟨S_, .i32⟩
  | .hbm, ⟨84, _⟩ => ⟨S1650000, .i32⟩
  | .hbm, ⟨85, _⟩ => ⟨S1650000, .i1⟩
  | .hbm, ⟨86, _⟩ => ⟨S_, .i32⟩
  | .hbm, ⟨87, _⟩ => ⟨S1650000, .i32⟩
  | .hbm, ⟨88, _⟩ => ⟨S1650000, .i32⟩
  | .hbm, ⟨89, _⟩ => ⟨S1650000, .i32⟩
  | .hbm, ⟨90, _⟩ => ⟨S1650000x1, .i32⟩
  | .hbm, ⟨91, _⟩ => ⟨S1650000x13, .f32⟩
  | .hbm, ⟨92, _⟩ => ⟨S1650000x1, .f32⟩
  | .hbm, ⟨93, _⟩ => ⟨S1650000x13, .f32⟩
  | .hbm, ⟨94, _⟩ => ⟨S1650000x13, .f32⟩
  | .hbm, ⟨95, _⟩ => ⟨S_, .f32⟩
  | .hbm, ⟨96, _⟩ => ⟨S50000x13, .f32⟩
  | .hbm, ⟨97, _⟩ => ⟨S1650000x1, .i32⟩
  | .hbm, ⟨98, _⟩ => ⟨S50000x13, .f32⟩
  | .hbm, ⟨99, _⟩ => ⟨S50000x13, .f32⟩
  | .local _ .vmem, ⟨0, _⟩ => ⟨S5000x12, .f32⟩
  | .local _ .vmem, ⟨1, _⟩ => ⟨S5000x12, .f32⟩
  | .local _ .vmem, ⟨2, _⟩ => ⟨S12x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x13, .f32⟩
  | .local _ .vmem, ⟨15, _⟩ => ⟨S1x13, .f32⟩
  | .local _ .vmem, ⟨16, _⟩ => ⟨S5000x13, .f32⟩
  | .local _ .vmem, ⟨17, _⟩ => ⟨S5000x13, .f32⟩
  | .local _ .vmem, ⟨18, _⟩ => ⟨S2000x13, .f32⟩
  | .local _ .vmem, ⟨19, _⟩ => ⟨S2000x13, .f32⟩
  | .local _ .vmem, ⟨20, _⟩ => ⟨S13x13, .f32⟩
  | .local _ .vmem, ⟨21, _⟩ => ⟨S2000x13, .f32⟩
  | .local _ .vmem, ⟨22, _⟩ => ⟨S2000x13, .f32⟩
  | _, _ => ⟨S50000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_10 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x13 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x13 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x13 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x13 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S13x13 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x13 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  transposes_S128x12_S12x128_1_0 : S128x12.Transposes [1, 0] S12x128
  shapeCasts_S128_S1x128 : S128.ShapeCasts S1x128
  inb_S5000x12_S5000x12_0_0 : ∀ a, (![0, 0] : Fin 2 → Nat) a + S5000x12.size a ≤ S5000x12.size a
  h_S5000x12 : 0 < S5000x12.numel
  bitsLt_bf16_f32 : FTy.bits .bf16 < FTy.bits .f32
  inb_S12x128_S12x128_0_0 : ∀ a, (![0, 0] : Fin 2 → Nat) a + S12x128.size a ≤ S12x128.size a
  h_S12x128 : 0 < S12x128.numel
  shapeCasts_S12x128_S12x128 : S12x128.ShapeCasts S12x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S13x128_S128x13_1_0 : S13x128.Transposes [1, 0] S128x13
  shapeCasts_S13_S1x13 : S13.ShapeCasts S1x13
  inb_S128x13_S128x13_0_0 : ∀ a, (![0, 0] : Fin 2 → Nat) a + S128x13.size a ≤ S128x13.size a
  h_S128x13 : 0 < S128x13.numel
  shapeCasts_S128x13_S128x13 : S128x13.ShapeCasts S128x13
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S5000x13 : S1x13.Broadcasts S5000x13
  inb_S5000x13_S5000x13_0_0 : ∀ a, (![0, 0] : Fin 2 → Nat) a + S5000x13.size a ≤ S5000x13.size a
  h_S5000x13 : 0 < S5000x13.numel
  bcast_S1650000x1_S1650000x13_0_1 : S1650000x1.BroadcastsInDim S1650000x13 (![0, 1] : Fin 2 → Fin S1650000x13.rank)
  bcast_S_S50000x13 : S_.BroadcastsInDim S50000x13 (![] : Fin 0 → Fin S50000x13.rank)
  inb_S2000x13_S2000x13_0_0 : ∀ a, (![0, 0] : Fin 2 → Nat) a + S2000x13.size a ≤ S2000x13.size a
  h_S2000x13 : 0 < S2000x13.numel
  shapeCasts_S2000x13_S2000x13 : S2000x13.ShapeCasts S2000x13
  inb_S13x13_S13x13_0_0 : ∀ a, (![0, 0] : Fin 2 → Nat) a + S13x13.size a ≤ S13x13.size a
  h_S13x13 : 0 < S13x13.numel
  shapeCasts_S2000x13_S2000x1x13 : S2000x13.ShapeCasts S2000x1x13
  shapeCasts_S13x13_S1x13x13 : S13x13.ShapeCasts S1x13x13
  broadcasts_S2000x1x13_S2000x13x13 : S2000x1x13.Broadcasts S2000x13x13
  broadcasts_S1x13x13_S2000x13x13 : S1x13x13.Broadcasts S2000x13x13
  reduces_S2000x13x13_S2000x13 : S2000x13x13.Reduces [2] S2000x13
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x12_S12x128_S5000x128_1_0_0_1_n_n_wf : DotDims.WF S5000x12 S12x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  dot_S5000x128_S128x13_S5000x13_1_0_0_1_n_n_wf : DotDims.WF S5000x128 S128x13 S5000x13 [1] [0] [0] [1] [] []
  gather_S50000x13_S1650000x1_S1650000x13_1_0_n_n_0_1_113_wf : GatherDims.WF S50000x13 S1650000x1 S1650000x13 [1] [0] [] [0] [] 1 ![1, 13]
  scatter_S50000x13_S1650000x1_S1650000x13_1_0_0_1_wf : ScatterDims.WF S50000x13 S1650000x1 S1650000x13 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x12.size a ≤ S50000x12.size a
  hwx0_0 : ∀ i : grid0.Coords, EltTy.bits .f32 = 32 ∨ (Rect.block (s := S50000x12) S5000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x128.size a ≤ S12x128.size a
  hwx0_1 : ∀ i : grid0.Coords, EltTy.bits .f32 = 32 ∨ (Rect.block (s := S12x128) S12x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x13.size a ≤ S128x13.size a
  hwx2_1 : ∀ i : grid2.Coords, EltTy.bits .f32 = 32 ∨ (Rect.block (s := S128x13) S128x13.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x13.size a ≤ S1x13.size a
  hwx2_2 : ∀ i : grid2.Coords, EltTy.bits .f32 = 32 ∨ (Rect.block (s := S1x13) S1x13.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x13.size a ≤ S50000x13.size a
  hwx2_3 : ∀ i : grid2.Coords, EltTy.bits .f32 = 32 ∨ (Rect.block (s := S50000x13) S5000x13.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x13.size a ≤ S50000x13.size a
  hwx3_0 : ∀ i : grid3.Coords, EltTy.bits .f32 = 32 ∨ (Rect.block (s := S50000x13) S2000x13.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S13x13.size a ≤ S13x13.size a
  hwx3_1 : ∀ i : grid3.Coords, EltTy.bits .f32 = 32 ∨ (Rect.block (s := S13x13) S13x13.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x13.size a ≤ S50000x13.size a
  hwx3_2 : ∀ i : grid3.Coords, EltTy.bits .f32 = 32 ∨ (Rect.block (s := S50000x13) S2000x13.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x12_S12x128_S5000x128_1_0_0_1_n_n : DotDims S5000x12 S12x128 S5000x128 where
  lhsContracting := [1]
  rhsContracting := [0]
  lhsNonContracting := [0]
  rhsNonContracting := [1]
  lhsBatch := []
  rhsBatch := []
  wf := dot_S5000x12_S12x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x13_S5000x13_1_0_0_1_n_n : DotDims S5000x128 S128x13 S5000x13 where
  lhsContracting := [1]
  rhsContracting := [0]
  lhsNonContracting := [0]
  rhsNonContracting := [1]
  lhsBatch := []
  rhsBatch := []
  wf := dot_S5000x128_S128x13_S5000x13_1_0_0_1_n_n_wf
def gather_S50000x13_S1650000x1_S1650000x13_1_0_n_n_0_1_113 : GatherDims S50000x13 S1650000x1 S1650000x13 where
  offsetDims := [1]
  collapsedSliceDims := [0]
  operandBatchingDims := []
  startIndicesBatchingDims := []
  startIndexMap := [0]
  indexVectorDim := 1
  sliceSizes := ![1, 13]
  wf := gather_S50000x13_S1650000x1_S1650000x13_1_0_n_n_0_1_113_wf
def scatter_S50000x13_S1650000x1_S1650000x13_1_0_0_1 : ScatterDims S50000x13 S1650000x1 S1650000x13 where
  updateWindowDims := [1]
  insertedWindowDims := [0]
  scatterDimsToOperandDims := [0]
  indexVectorDim := 1
  wf := scatter_S50000x13_S1650000x1_S1650000x13_1_0_0_1_wf

abbrev win0_0 : Pipeline.Window sig grid0 :=
  Pipeline.Window.ofSpec (Memref.whole main_arg0) S5000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S12x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S128x13.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x13.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S5000x13.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S2000x13.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S13x13.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S2000x13.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x12 : Shape := ⟨2, ![50000, 12]⟩
abbrev S2x1600000 : Shape := ⟨2, ![2, 1600000]⟩
abbrev S13x13 : Shape := ⟨2, ![13, 13]⟩
abbrev S128x12 : Shape := ⟨2, ![128, 12]⟩
abbrev S128 : Shape := ⟨1, ![128]⟩
abbrev S128x128 : Shape := ⟨2, ![128, 128]⟩
abbrev S13x128 : Shape := ⟨2, ![13, 128]⟩
abbrev S13 : Shape := ⟨1, ![13]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S12x128 : Shape := ⟨2, ![12, 128]⟩
abbrev S50000x128 : Shape := ⟨2, ![50000, 128]⟩
abbrev S1x128 : Shape := ⟨2, ![1, 128]⟩
abbrev S1650000x128 : Shape := ⟨2, ![1650000, 128]⟩
abbrev S128x13 : Shape := ⟨2, ![128, 13]⟩
abbrev S50000x13 : Shape := ⟨2, ![50000, 13]⟩
abbrev S1x13 : Shape := ⟨2, ![1, 13]⟩
abbrev S1650000x13 : Shape := ⟨2, ![1650000, 13]⟩
abbrev S1x13x13 : Shape := ⟨3, ![1, 13, 13]⟩
abbrev S50000x1x13 : Shape := ⟨3, ![50000, 1, 13]⟩
abbrev S50000x13x13 : Shape := ⟨3, ![50000, 13, 13]⟩

abbrev nBuf : Space → Nat
  | .hbm => 126
  | .vmem => 0
  | .smem => 0
  | _ => 0

abbrev bufTy : (tb : Table) → Fin (tcTables nBuf tb) → BufTy
  | .hbm, ⟨0, _⟩ => ⟨S50000x12, .f32⟩
  | .hbm, ⟨1, _⟩ => ⟨S2x1600000, .i32⟩
  | .hbm, ⟨2, _⟩ => ⟨S13x13, .f32⟩
  | .hbm, ⟨3, _⟩ => ⟨S128x12, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S13x128, .f32⟩
  | .hbm, ⟨8, _⟩ => ⟨S13, .f32⟩
  | .hbm, ⟨9, _⟩ => ⟨S50000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S1x1600000, .i32⟩
  | .hbm, ⟨14, _⟩ => ⟨S1600000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S1650000, .i32⟩
  | .hbm, ⟨25, _⟩ => ⟨S1650000, .i1⟩
  | .hbm, ⟨26, _⟩ => ⟨S_, .i32⟩
  | .hbm, ⟨27, _⟩ => ⟨S1650000, .i32⟩
  | .hbm, ⟨28, _⟩ => ⟨S1650000, .i32⟩
  | .hbm, ⟨29, _⟩ => ⟨S1650000, .i32⟩
  | .hbm, ⟨30, _⟩ => ⟨S1650000x1, .i32⟩
  | .hbm, ⟨31, _⟩ => ⟨S1650000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S1650000, .f32⟩
  | .hbm, ⟨42, _⟩ => ⟨S12x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S128x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S1650000, .i32⟩
  | .hbm, ⟨73, _⟩ => ⟨S1650000, .i1⟩
  | .hbm, ⟨74, _⟩ => ⟨S_, .i32⟩
  | .hbm, ⟨75, _⟩ => ⟨S1650000, .i32⟩
  | .hbm, ⟨76, _⟩ => ⟨S1650000, .i32⟩
  | .hbm, ⟨77, _⟩ => ⟨S1650000, .i32⟩
  | .hbm, ⟨78, _⟩ => ⟨S1650000x1, .i32⟩
  | .hbm, ⟨79, _⟩ => ⟨S1650000x128, .f32⟩
  | .hbm, ⟨80, _⟩ => ⟨S1650000x1, .f32⟩
  | .hbm, ⟨81, _⟩ => ⟨S1650000x128, .f32⟩
  | .hbm, ⟨82, _⟩ => ⟨S1650000x128, .f32⟩
  | .hbm, ⟨83, _⟩ => ⟨S_, .f32⟩
  | .hbm, ⟨84, _⟩ => ⟨S50000x128, .f32⟩
  | .hbm, ⟨85, _⟩ => ⟨S1650000x1, .i32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S128x13, .f32⟩
  | .hbm, ⟨91, _⟩ => ⟨S50000x13, .f32⟩
  | .hbm, ⟨92, _⟩ => ⟨S1x13, .f32⟩
  | .hbm, ⟨93, _⟩ => ⟨S50000x13, .f32⟩
  | .hbm, ⟨94, _⟩ => ⟨S50000x13, .f32⟩
  | .hbm, ⟨95, _⟩ => ⟨S_, .i32⟩
  | .hbm, ⟨96, _⟩ => ⟨S1650000, .i32⟩
  | .hbm, ⟨97, _⟩ => ⟨S1650000, .i1⟩
  | .hbm, ⟨98, _⟩ => ⟨S_, .i32⟩
  | .hbm, ⟨99, _⟩ => ⟨S1650000, .i32⟩
  | .hbm, ⟨100, _⟩ => ⟨S1650000, .i32⟩
  | .hbm, ⟨101, _⟩ => ⟨S1650000, .i32⟩
  | .hbm, ⟨102, _⟩ => ⟨S1650000x1, .i32⟩
  | .hbm, ⟨103, _⟩ => ⟨S1650000x13, .f32⟩
  | .hbm, ⟨104, _⟩ => ⟨S1650000x1, .f32⟩
  | .hbm, ⟨105, _⟩ => ⟨S1650000x13, .f32⟩
  | .hbm, ⟨106, _⟩ => ⟨S1650000x13, .f32⟩
  | .hbm, ⟨107, _⟩ => ⟨S_, .f32⟩
  | .hbm, ⟨108, _⟩ => ⟨S50000x13, .f32⟩
  | .hbm, ⟨109, _⟩ => ⟨S1650000x1, .i32⟩
  | .hbm, ⟨110, _⟩ => ⟨S50000x13, .f32⟩
  | .hbm, ⟨111, _⟩ => ⟨S50000x13, .f32⟩
  | .hbm, ⟨112, _⟩ => ⟨S50000x13, .f32⟩
  | .hbm, ⟨113, _⟩ => ⟨S_, .f32⟩
  | .hbm, ⟨114, _⟩ => ⟨S50000x13, .f32⟩
  | .hbm, ⟨115, _⟩ => ⟨S50000x13, .f32⟩
  | .hbm, ⟨116, _⟩ => ⟨S_, .f32⟩
  | .hbm, ⟨117, _⟩ => ⟨S50000x13, .f32⟩
  | .hbm, ⟨118, _⟩ => ⟨S50000x13, .f32⟩
  | .hbm, ⟨119, _⟩ => ⟨S1x13x13, .f32⟩
  | .hbm, ⟨120, _⟩ => ⟨S50000x1x13, .f32⟩
  | .hbm, ⟨121, _⟩ => ⟨S50000x13x13, .f32⟩
  | .hbm, ⟨122, _⟩ => ⟨S50000x13x13, .f32⟩
  | .hbm, ⟨123, _⟩ => ⟨S50000x13x13, .f32⟩
  | .hbm, ⟨124, _⟩ => ⟨S_, .f32⟩
  | .hbm, ⟨125, _⟩ => ⟨S50000x13, .f32⟩
  | _, _ => ⟨S50000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_10 : Ref sig .tc := ⟨.hbm, 95, rfl⟩
abbrev main_v70 : Ref sig .tc := ⟨.hbm, 96, rfl⟩
abbrev main_v71 : Ref sig .tc := ⟨.hbm, 97, rfl⟩
abbrev main_c_11 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_12 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_v86 : Ref sig .tc := ⟨.hbm, 115, rfl⟩
abbrev main_cst_14 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_15 : Ref sig .tc := ⟨.hbm, 124, rfl⟩
abbrev main_v94 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  transposes_S128x12_S12x128_1_0 : S128x12.Transposes [1, 0] S12x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  transposes_S128x128_S128x128_1_0 : S128x128.Transposes [1, 0] S128x128
  transposes_S13x128_S128x13_1_0 : S13x128.Transposes [1, 0] S128x13
  bcast_S13_S1x13_1 : S13.BroadcastsInDim S1x13 (![1] : Fin 1 → Fin S1x13.rank)
  bcast_S1x13_S50000x13_0_1 : S1x13.BroadcastsInDim S50000x13 (![0, 1] : Fin 2 → Fin S50000x13.rank)
  bcast_S1650000x1_S1650000x13_0_1 : S1650000x1.BroadcastsInDim S1650000x13 (![0, 1] : Fin 2 → Fin S1650000x13.rank)
  bcast_S_S50000x13 : S_.BroadcastsInDim S50000x13 (![] : Fin 0 → Fin S50000x13.rank)
  bcast_S13x13_S1x13x13_1_2 : S13x13.BroadcastsInDim S1x13x13 (![1, 2] : Fin 2 → Fin S1x13x13.rank)
  bcast_S50000x13_S50000x1x13_0_2 : S50000x13.BroadcastsInDim S50000x1x13 (![0, 2] : Fin 2 → Fin S50000x1x13.rank)
  bcast_S1x13x13_S50000x13x13_0_1_2 : S1x13x13.BroadcastsInDim S50000x13x13 (![0, 1, 2] : Fin 3 → Fin S50000x13x13.rank)
  bcast_S50000x1x13_S50000x13x13_0_1_2 : S50000x1x13.BroadcastsInDim S50000x13x13 (![0, 1, 2] : Fin 3 → Fin S50000x13x13.rank)
  reducesTo_S50000x13x13_S50000x13_d2 : S50000x13x13.ReducesTo [2] S50000x13
  h_S_ : 0 < S_.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x12_S12x128_S50000x128_1_0_0_1_n_n_wf : DotDims.WF S50000x12 S12x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []
  dot_S50000x128_S128x13_S50000x13_1_0_0_1_n_n_wf : DotDims.WF S50000x128 S128x13 S50000x13 [1] [0] [0] [1] [] []
  gather_S50000x13_S1650000x1_S1650000x13_1_0_n_n_0_1_113_wf : GatherDims.WF S50000x13 S1650000x1 S1650000x13 [1] [0] [] [0] [] 1 ![1, 13]
  scatter_S50000x13_S1650000x1_S1650000x13_1_0_0_1_wf : ScatterDims.WF S50000x13 S1650000x1 S1650000x13 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x12_S12x128_S50000x128_1_0_0_1_n_n : DotDims S50000x12 S12x128 S50000x128 where
  lhsContracting := [1]
  rhsContracting := [0]
  lhsNonContracting := [0]
  rhsNonContracting := [1]
  lhsBatch := []
  rhsBatch := []
  wf := dot_S50000x12_S12x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x13_S50000x13_1_0_0_1_n_n : DotDims S50000x128 S128x13 S50000x13 where
  lhsContracting := [1]
  rhsContracting := [0]
  lhsNonContracting := [0]
  rhsNonContracting := [1]
  lhsBatch := []
  rhsBatch := []
  wf := dot_S50000x128_S128x13_S50000x13_1_0_0_1_n_n_wf
def gather_S50000x13_S1650000x1_S1650000x13_1_0_n_n_0_1_113 : GatherDims S50000x13 S1650000x1 S1650000x13 where
  offsetDims := [1]
  collapsedSliceDims := [0]
  operandBatchingDims := []
  startIndicesBatchingDims := []
  startIndexMap := [0]
  indexVectorDim := 1
  sliceSizes := ![1, 13]
  wf := gather_S50000x13_S1650000x1_S1650000x13_1_0_n_n_0_1_113_wf
def scatter_S50000x13_S1650000x1_S1650000x13_1_0_0_1 : ScatterDims S50000x13 S1650000x1 S1650000x13 where
  updateWindowDims := [1]
  insertedWindowDims := [0]
  scatterDimsToOperandDims := [0]
  indexVectorDim := 1
  wf := scatter_S50000x13_S1650000x1_S1650000x13_1_0_0_1_wf

class Facts : Prop extends Facts₀ where

variable [Facts]
-- ==== Proof.KernelRun.lean ====
/-
  The idealized kernel program's run with its result named.

  @main is eight segments: a stretch of host operations, then a kernel, four times over.  The buffers' contents at each
  segment boundary are a fold through @main from the launch memory.  Every weakly fair execution terminates with every
  buffer outside the kernels' scopes at the last boundary's contents: in particular the result buffer, and each argument
  buffer, which no segment writes, at what it was launched with.
-/
import proofs.«151181_j34763465294566_1_alg».proof.Proof.Gen.KernelIdeal.Frame

set_option maxRecDepth 16384

noncomputable section

namespace Cert.Gcn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v75) = W8 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v75 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.Gcn.Run

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«151181_j34763465294566_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.Spec.lean ====
/-
  One graph-convolution network, entry by entry, over the extended reals.

  A layer is an affine map of the rows of a node-feature matrix: entry (p, q) of X · Wt + bias is
  Σ n, X (p, n) * Wt (n, q) + bias (0, q), the bias one row laid along every row.  Between layers the rows are
  clamped from below at zero.  The network's last step turns the node scores A into probabilities by the logistic
  function and takes, for every node p and class i, the largest of R (i, j) * logistic (A (p, j)) over the classes j:
  the maximum starts from -inf, so it is the maximum of the thirteen products.
  A product of extended reals commutes, so it does not matter on which side R stands.
-/
import Idealize.ShloMosaic.Lib.ValueIdx
import Idealize.ShloMosaic.PureOps.Ideal.Laws

noncomputable section

namespace Cert.Gcn

open Idealize.ShloMosaic Idealize.ShloMosaic.ValueIdx

/-- The rows of `X` through the weights `Wt` plus the bias row: entry (p, q) is Σ n, X (p, n) * Wt (n, q) + bias (0, q). -/
def affine {K N Q : Nat} (X : FVec Ideal ⟨2, ![K, N]⟩ .f32) (Wt : FVec Ideal ⟨2, ![N, Q]⟩ .f32)
    (bias : FVec Ideal ⟨2, ![1, Q]⟩ .f32) : FVec Ideal ⟨2, ![K, Q]⟩ .f32 :=
  fun j => (∑ n : Fin N, X (ix2 (j 0) n) * Wt (ix2 n (j 1))) + bias (ix2 (0 : Fin 1) (j 1))

theorem affine_apply {K N Q : Nat} (X : FVec Ideal ⟨2, ![K, N]⟩ .f32) (Wt : FVec Ideal ⟨2, ![N, Q]⟩ .f32)
    (bias : FVec Ideal ⟨2, ![1, Q]⟩ .f32) (p : Fin K) (q : Fin Q) :
    affine X Wt bias (ix2 p q) = (∑ n : Fin N, X (ix2 p n) * Wt (ix2 n q)) + bias (ix2 (0 : Fin 1) q) := rfl

/-- Every entry clamped from below at the value of the zero word. -/
def relu {K N : Nat} (X : FVec Ideal ⟨2, ![K, N]⟩ .f32) : FVec Ideal ⟨2, ![K, N]⟩ .f32 :=
  fun j => max (X j) (Ideal.ofBits .f32 0x00000000#32)

/-- The constrained output: entry (p, i) is the largest, from -inf, of logistic (A (p, j)) * R (i, j) over j. -/
def constrained {K C : Nat} (A : FVec Ideal ⟨2, ![K, C]⟩ .f32) (R : FVec Ideal ⟨2, ![C, C]⟩ .f32) :
    FVec Ideal ⟨2, ![K, C]⟩ .f32 :=
  fun j => (Finset.univ : Finset (Fin C)).fold max (Ideal.ofBits .f32 0xFF800000#32)
    (fun k => Ideal.logistic (A (ix2 (j 0) k)) * R (ix2 (j 1) k))

theorem constrained_apply {K C : Nat} (A : FVec Ideal ⟨2, ![K, C]⟩ .f32) (R : FVec Ideal ⟨2, ![C, C]⟩ .f32)
    (p : Fin K) (i : Fin C) :
    constrained A R (ix2 p i) = (Finset.univ : Finset (Fin C)).fold max (Ideal.ofBits .f32 0xFF800000#32)
      (fun k => Ideal.logistic (A (ix2 p k)) * R (ix2 i k)) := rfl

/-- Equal operands give equal layers and equal outputs. -/
theorem affine_congr {K N Q : Nat} {X X' : FVec Ideal ⟨2, ![K, N]⟩ .f32} {Wt Wt' : FVec Ideal ⟨2, ![N, Q]⟩ .f32}
    {b b' : FVec Ideal ⟨2, ![1, Q]⟩ .f32} (hX : X = X') (hW : Wt = Wt') (hb : b = b') :
    affine X Wt b = affine X' Wt' b' := by subst hX hW hb; rfl

theorem relu_congr {K N : Nat} {X X' : FVec Ideal ⟨2, ![K, N]⟩ .f32} (hX : X = X') : relu X = relu X' := by
  subst hX; rfl

theorem constrained_congr {K C : Nat} {A A' : FVec Ideal ⟨2, ![K, C]⟩ .f32} {R R' : FVec Ideal ⟨2, ![C, C]⟩ .f32}
    (hA : A = A') (hR : R = R') : constrained A R = constrained A' R' := by subst hA hR; rfl

end Cert.Gcn

end
-- ==== Proof.KernelBody.lean ====
/-
  What each kernel body stores, as a function of the blocks it loads, over the extended reals.

  The three linear bodies store the rows of the loaded block through the loaded weights plus the loaded bias row; a
  change of float format is the identity over the extended reals, so the narrowing of the two factors before the product
  leaves no trace.  The second and third first clamp the block from below at zero.  The last body stores, at (p, i), the
  largest of logistic (a (p, j)) * r (i, j) over j: the product is taken on a [rows, 13, 13] array whose entry (p, i, j)
  is the (p, j) entry of the probabilities times the (i, j) entry of the constraint matrix, and reduced along j from -inf.
-/
import proofs.«151181_j34763465294566_1_alg».proof.Proof.Gen.KernelIdeal.Skeleton
import proofs.«151181_j34763465294566_1_alg».proof.Proof.LibDenseLayer
import proofs.«151181_j34763465294566_1_alg».proof.Proof.Spec
import Idealize.ShloMosaic.Lib.Pipeline.Value
import Idealize.ShloMosaic.Lib.ValueLayout

noncomputable section

namespace Cert.Gcn.Body

open Idealize.ShloMosaic Idealize.ShloMosaic.ValueIdx Cert.KernelIdeal Cert.KernelIdeal.Gen

/-- The first layer's body: the block's rows through the weights plus the bias row. -/
theorem linear0 (v0 : FVec Ideal S5000x12 .f32) (v2 : FVec Ideal S12x128 .f32) (v6 : FVec Ideal S1x128 .f32) :
    k0_pay1 (F := Ideal) v0 v2 v6 = affine v0 v2 v6 := by
  funext j
  obtain ⟨p, q, rfl⟩ : ∃ (p : Fin 5000) (q : Fin 128), j = ix2 p q := ⟨j 0, j 1, eq_ix2 j⟩
  unfold k0_pay1
  rw [shapeCast_self, shapeCast_self]
  refine (DenseLayer.affine_apply (K := 5000) (N := 12) (Q := 128) dot_S5000x12_S12x128_S5000x128_1_0_0_1_n_n_wf
    (truncf .bf16 v0 bitsLt_bf16_f32) (truncf .bf16 v2 bitsLt_bf16_f32) v6 broadcasts_S1x128_S5000x128 p q).trans ?_
  rfl

/-- The second layer's body: the block clamped at zero, its rows through the weights plus the bias row. -/
theorem linear1 (v0 : FVec Ideal S5000x128 .f32) (v5 : FVec Ideal S128x128 .f32) (v9 : FVec Ideal S1x128 .f32) :
    k1_pay1 (F := Ideal) v0 v5 v9 = affine (relu v0) v5 v9 := by
  funext j
  obtain ⟨p, q, rfl⟩ : ∃ (p : Fin 5000) (q : Fin 128), j = ix2 p q := ⟨j 0, j 1, eq_ix2 j⟩
  unfold k1_pay1
  rw [shapeCast_self, shapeCast_self, shapeCast_self]
  refine (DenseLayer.affine_apply (K := 5000) (N := 128) (Q := 128) dot_S5000x128_S128x128_S5000x128_1_0_0_1_n_n_wf
    (truncf .bf16 (maximumf v0 (broadcast S5000x128 (Scalar.ofBits (F := Ideal) .f32 0x00000000#32))) bitsLt_bf16_f32)
    (truncf .bf16 v5 bitsLt_bf16_f32) v9 broadcasts_S1x128_S5000x128 p q).trans ?_
  rfl

/-- The third layer's body: the same with thirteen output columns. -/
theorem linear2 (v0 : FVec Ideal S5000x128 .f32) (v5 : FVec Ideal S128x13 .f32) (v9 : FVec Ideal S1x13 .f32) :
    k2_pay1 (F := Ideal) v0 v5 v9 = affine (relu v0) v5 v9 := by
  funext j
  obtain ⟨p, q, rfl⟩ : ∃ (p : Fin 5000) (q : Fin 13), j = ix2 p q := ⟨j 0, j 1, eq_ix2 j⟩
  unfold k2_pay1
  rw [shapeCast_self, shapeCast_self, shapeCast_self]
  refine (DenseLayer.affine_apply (K := 5000) (N := 128) (Q := 13) dot_S5000x128_S128x13_S5000x13_1_0_0_1_n_n_wf
    (truncf .bf16 (maximumf v0 (broadcast S5000x128 (Scalar.ofBits (F := Ideal) .f32 0x00000000#32))) bitsLt_bf16_f32)
    (truncf .bf16 v5 bitsLt_bf16_f32) v9 broadcasts_S1x13_S5000x13 p q).trans ?_
  rfl

/-- The probabilities laid along a new middle axis: entry (p, i, j) is entry (p, j). -/
theorem rows_along (x : FVec Ideal S2000x13 .f32) (p : Fin 2000) (i j : Fin 13) :
    broadcastTo S2000x13x13 (shapeCast S2000x1x13 x shapeCasts_S2000x13_S2000x1x13) broadcasts_S2000x1x13_S2000x13x13
      (ix3 p i j) = x (ix2 p j) := by
  rw [broadcastTo_apply _ broadcasts_S2000x1x13_S2000x13x13 (ix3 p i j) (ix3 p (0 : Fin 1) j) (fun a => by
      match a with
      | ⟨0, _⟩ => rfl
      | ⟨1, _⟩ => rfl
      | ⟨2, _⟩ => rfl)]
  refine shapeCast_apply x shapeCasts_S2000x13_S2000x1x13 (ix3 p (0 : Fin 1) j) (ix2 p j) ?_
  rw [Shape.rowMajor_val_two, Shape.rowMajor_val_three]
  show p.val * 13 + j.val = (p.val * 1 + 0) * 13 + j.val
  omega

/-- The constraint matrix laid along a new leading axis: entry (p, i, j) is entry (i, j). -/
theorem matrix_along (r : FVec Ideal S13x13 .f32) (p : Fin 2000) (i j : Fin 13) :
    broadcastTo S2000x13x13 (shapeCast S1x13x13 r shapeCasts_S13x13_S1x13x13) broadcasts_S1x13x13_S2000x13x13
      (ix3 p i j) = r (ix2 i j) := by
  rw [broadcastTo_apply _ broadcasts_S1x13x13_S2000x13x13 (ix3 p i j) (ix3 (0 : Fin 1) i j) (fun a => by
      match a with
      | ⟨0, _⟩ => rfl
      | ⟨1, _⟩ => rfl
      | ⟨2, _⟩ => rfl)]
  refine shapeCast_apply r shapeCasts_S13x13_S1x13x13 (ix3 (0 : Fin 1) i j) (ix2 i j) ?_
  rw [Shape.rowMajor_val_two, Shape.rowMajor_val_three]
  show i.val * 13 + j.val = (0 * 13 + i.val) * 13 + j.val
  omega

/-- The reduced index (p, i) with the class j put back on the last axis is (p, i, j). -/
theorem lift_last (p : Fin 2000) (i : Fin 13) (k : Fin (S2000x13x13.size (2 : Fin 3))) :
    reduces_S2000x13x13_S2000x13.lift (ix2 p i) k = ix3 p i (⟨k.val, k.isLt⟩ : Fin 13) := by
  funext c; apply Fin.ext
  fin_cases c <;> rfl

/-- The last body: at (p, i) the largest, from -inf, of logistic (a (p, j)) * r (i, j) over j. -/
theorem final3 (v0 : FVec Ideal S2000x13 .f32) (v3 : FVec Ideal S13x13 .f32) :
    k3_pay1 (F := Ideal) v0 v3 = constrained v0 v3 := by
  funext j
  obtain ⟨p, i, rfl⟩ : ∃ (p : Fin 2000) (i : Fin 13), j = ix2 p i := ⟨j 0, j 1, eq_ix2 j⟩
  unfold k3_pay1
  rw [shapeCast_self]
  refine (Ideal.multiReduction_maximumf_single (s := S2000x13x13) (t := S2000x13) (a := (2 : Fin 3))
    (mulf (broadcastTo S2000x13x13 (shapeCast S2000x1x13 (logistic v0) shapeCasts_S2000x13_S2000x1x13) broadcasts_S2000x1x13_S2000x13x13)
      (broadcastTo S2000x13x13 (shapeCast S1x13x13 v3 shapeCasts_S13x13_S1x13x13) broadcasts_S1x13x13_S2000x13x13))
    0xFF800000#32 reduces_S2000x13x13_S2000x13 (.inl rfl) rfl (ix2 p i)).trans ?_
  rw [constrained_apply]
  refine congrArg (fun f => Finset.fold max (Ideal.ofBits .f32 0xFF800000#32) f (Finset.univ : Finset (Fin 13))) ?_
  funext k
  show (mulf (broadcastTo S2000x13x13 (shapeCast S2000x1x13 (logistic v0) shapeCasts_S2000x13_S2000x1x13) broadcasts_S2000x1x13_S2000x13x13)
      (broadcastTo S2000x13x13 (shapeCast S1x13x13 v3 shapeCasts_S13x13_S1x13x13) broadcasts_S1x13x13_S2000x13x13))
      (reduces_S2000x13x13_S2000x13.lift (ix2 p i) k) = _
  rw [lift_last]
  show broadcastTo S2000x13x13 (shapeCast S2000x1x13 (logistic v0) shapeCasts_S2000x13_S2000x1x13) broadcasts_S2000x1x13_S2000x13x13 (ix3 p i (⟨k.val, k.isLt⟩ : Fin 13))
      * broadcastTo S2000x13x13 (shapeCast S1x13x13 v3 shapeCasts_S13x13_S1x13x13) broadcasts_S1x13x13_S2000x13x13 (ix3 p i (⟨k.val, k.isLt⟩ : Fin 13)) = _
  rw [rows_along, matrix_along]
  rfl

end Cert.Gcn.Body

end
-- ==== Proof.Region0.lean ====
/-
  The first layer's kernel: its output array as one function of the arrays it is entered with.

  The grid has ten points; point t works on rows 5000·t … 5000·t + 4999 of the input and writes the same rows of the
  output, with the whole weight matrix and the whole bias row at every point.  So what point t writes back is rows
  5000·t … of ONE function of the three arrays as the kernel finds them, and the ten blocks tile the output: after the
  kernel the output array holds that function.
-/
import proofs.«151181_j34763465294566_1_alg».proof.Proof.Gen.KernelIdeal.Frame
import proofs.«151181_j34763465294566_1_alg».proof.Proof.KernelBody

set_option maxRecDepth 16384

noncomputable section

namespace Cert.Gcn.Region0

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's and the output's row block is the point's number, every other block
    index is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's input block is row 5000·t + p of the input array. -/
theorem read_rows (c : Dev nD) (t : Fin cfg0.N) (p : Fin 5000) (n : Fin 12) (hp : t.val * 5000 + p.val < 50000) :
    iblk0 V c 0 t (ix2 p n) = V c main_arg0 (ix2 (⟨t.val * 5000 + p.val, hp⟩ : Fin 50000) n) := by
  obtain ⟨e0, e1, -, -, -, -, -, -⟩ := block_indices t
  show V c main_arg0 (((cfg0.win 0).blk t).view.emb (ix2 p n)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 12 + 1 * n.val = n.val; omega

/-- The weights' block is the whole weight matrix. -/
theorem read_weights (c : Dev nD) (t : Fin cfg0.N) (n : Fin 12) (q : Fin 128) :
    iblk0 V c 1 t (ix2 n q) = V c main_v27 (ix2 n q) := by
  obtain ⟨-, -, e2, e3, -, -, -, -⟩ := block_indices t
  show V c main_v27 (((cfg0.win 1).blk t).view.emb (ix2 n q)) = _
  refine congrArg _ (funext fun a => Fin.ext ?_)
  match a with
  | ⟨0, _⟩ => show win0_1.index t (0 : Fin 2) * 12 + 1 * n.val = n.val; omega
  | ⟨1, _⟩ => show win0_1.index t (1 : Fin 2) * 128 + 1 * q.val = q.val; omega

/-- The bias' block is the whole bias row. -/
theorem read_bias (c : Dev nD) (t : Fin cfg0.N) (q : Fin 128) :
    iblk0 V c 2 t (ix2 (0 : Fin 1) q) = V c main_v28 (ix2 (0 : Fin 1) q) := by
  obtain ⟨-, -, -, -, e4, e5, -, -⟩ := block_indices t
  show V c main_v28 (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Entry (p, q) of point t's output block is entry (5000·t + p, q) of the output array. -/
theorem out_entry (t : Fin cfg0.N) (p : Fin 5000) (q : Fin 128) (hp : t.val * 5000 + p.val < 50000) :
    ((cfg0.win 3).blk t).view.emb (ix2 p q) = ix2 (⟨t.val * 5000 + p.val, hp⟩ : Fin 50000) q := by
  obtain ⟨-, -, -, -, -, -, e6, e7⟩ := block_indices t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point t writes back is its block of the layer's function of the arrays as the kernel finds them. -/
theorem written (c : Dev nD) (t : Fin cfg0.N) :
    (dat0 V c).flushed 3 t = ((cfg0.win 3).blk t).view.read (Elt Ideal)
      (affine (V c main_arg0) (V c main_v27) (V c main_v28)) := by
  show (cfg0.win 3).cut (grid0.coords t) ((dat0 V c).after 3 t) = _
  rw [after0_3]
  unfold out0_3
  rw [View.canon_unit_zero zero_offsets]
  simp only [View.ld_unit_zero (S := S5000x12) zero_offsets, View.ld_unit_zero (S := S12x128) zero_offsets,
    View.ld_unit_zero (S := S1x128) zero_offsets]
  rw [Body.linear0]
  refine funext fun (y : S5000x128.Idx) => ?_
  obtain ⟨p, q, rfl⟩ : ∃ (p : Fin 5000) (q : Fin 128), y = ix2 p q := ⟨y 0, y 1, eq_ix2 y⟩
  have hN : grid0.N = 10 := N_0
  have ht : t.val < grid0.N := t.isLt
  rw [hN] at ht
  have hp : t.val * 5000 + p.val < 50000 := by have := p.isLt; omega
  show affine (iblk0 V c 0 t) (iblk0 V c 1 t) (iblk0 V c 2 t) (ix2 p q)
    = (affine (V c main_arg0) (V c main_v27) (V c main_v28)) (((cfg0.win 3).blk t).view.emb (ix2 p q))
  rw [out_entry t p q hp, affine_apply, affine_apply, read_bias V c t q]
  refine congrArg (· + _) (Finset.sum_congr rfl fun n _ => ?_)
  rw [read_rows V c t p n hp, read_weights V c t n q]

/-- An entry of the output array is in point t's block when its row is among the point's five thousand. -/
theorem in_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v29).slice (win0_3.rect t)).set ↔ _
  rw [View.set_slice_whole, Rect.mem_set_unit]
  exact Iff.rfl

/-- Every entry of the output array is in the block of the point its row falls to. -/
theorem tiled (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, -, -, e6, e7⟩ := block_indices t
  refine ⟨t, flush0_3 t, ?_⟩
  rw [in_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After the kernel the output array holds the layer's function of the arrays as the kernel found them. -/
theorem array (c : Dev nD) :
    (dat0 V c).arrAt 3 cfg0.N = affine (V c main_arg0) (V c main_v27) (V c main_v28) :=
  (dat0 V c).arrAt_eq_of_cover 3 _ (fun t _ => written V c t) tiled

end Cert.Gcn.Region0

end
-- ==== Proof.Region1.lean ====
/-
  The second layer's kernel: its output array as one function of the arrays it is entered with.

  The grid has ten points; point t works on rows 5000·t … 5000·t + 4999 of the input and writes the same rows of the
  output, with the whole weight matrix and the whole bias row at every point.  So what point t writes back is rows
  5000·t … of ONE function of the three arrays as the kernel finds them, and the ten blocks tile the output: after the
  kernel the output array holds that function.
-/
import proofs.«151181_j34763465294566_1_alg».proof.Proof.Gen.KernelIdeal.Frame
import proofs.«151181_j34763465294566_1_alg».proof.Proof.KernelBody

set_option maxRecDepth 16384

noncomputable section

namespace Cert.Gcn.Region1

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's and the output's row block is the point's number, every other block
    index is zero. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's input block is row 5000·t + p of the input array. -/
theorem read_rows (c : Dev nD) (t : Fin cfg1.N) (p : Fin 5000) (n : Fin 128) (hp : t.val * 5000 + p.val < 50000) :
    iblk1 V c 0 t (ix2 p n) = V c main_v42 (ix2 (⟨t.val * 5000 + p.val, hp⟩ : Fin 50000) n) := by
  obtain ⟨e0, e1, -, -, -, -, -, -⟩ := block_indices t
  show V c main_v42 (((cfg1.win 0).blk t).view.emb (ix2 p n)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * n.val = n.val; omega

/-- The weights' block is the whole weight matrix. -/
theorem read_weights (c : Dev nD) (t : Fin cfg1.N) (n : Fin 128) (q : Fin 128) :
    iblk1 V c 1 t (ix2 n q) = V c main_v43 (ix2 n q) := by
  obtain ⟨-, -, e2, e3, -, -, -, -⟩ := block_indices t
  show V c main_v43 (((cfg1.win 1).blk t).view.emb (ix2 n q)) = _
  refine congrArg _ (funext fun a => Fin.ext ?_)
  match a with
  | ⟨0, _⟩ => show win1_1.index t (0 : Fin 2) * 128 + 1 * n.val = n.val; omega
  | ⟨1, _⟩ => show win1_1.index t (1 : Fin 2) * 128 + 1 * q.val = q.val; omega

/-- The bias' block is the whole bias row. -/
theorem read_bias (c : Dev nD) (t : Fin cfg1.N) (q : Fin 128) :
    iblk1 V c 2 t (ix2 (0 : Fin 1) q) = V c main_v44 (ix2 (0 : Fin 1) q) := by
  obtain ⟨-, -, -, -, e4, e5, -, -⟩ := block_indices t
  show V c main_v44 (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Entry (p, q) of point t's output block is entry (5000·t + p, q) of the output array. -/
theorem out_entry (t : Fin cfg1.N) (p : Fin 5000) (q : Fin 128) (hp : t.val * 5000 + p.val < 50000) :
    ((cfg1.win 3).blk t).view.emb (ix2 p q) = ix2 (⟨t.val * 5000 + p.val, hp⟩ : Fin 50000) q := by
  obtain ⟨-, -, -, -, -, -, e6, e7⟩ := block_indices t
  refine funext fun a => Fin.ext ?_
  match a with
  | ⟨0, _⟩ => show win1_3.index t (0 : Fin 2) * 5000 + 1 * p.val = t.val * 5000 + p.val; omega
  | ⟨1, _⟩ => show win1_3.index t (1 : Fin 2) * 128 + 1 * q.val = q.val; omega

/-- What point t writes back is its block of the layer's function of the arrays as the kernel finds them. -/
theorem written (c : Dev nD) (t : Fin cfg1.N) :
    (dat1 V c).flushed 3 t = ((cfg1.win 3).blk t).view.read (Elt Ideal)
      (affine (relu (V c main_v42)) (V c main_v43) (V c main_v44)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets,
    View.ld_unit_zero (S := S1x128) zero_offsets]
  rw [Body.linear1]
  refine funext fun (y : S5000x128.Idx) => ?_
  obtain ⟨p, q, rfl⟩ : ∃ (p : Fin 5000) (q : Fin 128), y = ix2 p q := ⟨y 0, y 1, eq_ix2 y⟩
  have hN : grid1.N = 10 := N_1
  have ht : t.val < grid1.N := t.isLt
  rw [hN] at ht
  have hp : t.val * 5000 + p.val < 50000 := by have := p.isLt; omega
  show affine (relu (iblk1 V c 0 t)) (iblk1 V c 1 t) (iblk1 V c 2 t) (ix2 p q)
    = (affine (relu (V c main_v42)) (V c main_v43) (V c main_v44)) (((cfg1.win 3).blk t).view.emb (ix2 p q))
  rw [out_entry t p q hp, affine_apply, affine_apply, read_bias V c t q]
  refine congrArg (· + _) (Finset.sum_congr rfl fun n _ => ?_)
  rw [read_weights V c t n q]
  exact congrArg (fun x : EReal => max x (Ideal.ofBits .f32 0x00000000#32) * V c main_v43 (ix2 n q)) (read_rows V c t p n hp)

/-- An entry of the output array is in point t's block when its row is among the point's five thousand. -/
theorem in_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

/-- Every entry of the output array is in the block of the point its row falls to. -/
theorem tiled (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, e6, e7⟩ := block_indices t
  refine ⟨t, flush1_3 t, ?_⟩
  rw [in_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- After the kernel the output array holds the layer's function of the arrays as the kernel found them. -/
theorem array (c : Dev nD) :
    (dat1 V c).arrAt 3 cfg1.N = affine (relu (V c main_v42)) (V c main_v43) (V c main_v44) :=
  (dat1 V c).arrAt_eq_of_cover 3 _ (fun t _ => written V c t) tiled

end Cert.Gcn.Region1

end
-- ==== Proof.Region2.lean ====
/-
  The third layer's kernel: its output array as one function of the arrays it is entered with.

  The grid has ten points; point t works on rows 5000·t … 5000·t + 4999 of the input and writes the same rows of the
  output, with the whole weight matrix and the whole bias row at every point.  So what point t writes back is rows
  5000·t … of ONE function of the three arrays as the kernel finds them, and the ten blocks tile the output: after the
  kernel the output array holds that function.
-/
import proofs.«151181_j34763465294566_1_alg».proof.Proof.Gen.KernelIdeal.Frame
import proofs.«151181_j34763465294566_1_alg».proof.Proof.KernelBody

set_option maxRecDepth 16384

noncomputable section

namespace Cert.Gcn.Region2

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's and the output's row block is the point's number, every other block
    index is zero. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of point t's input block is row 5000·t + p of the input array. -/
theorem read_rows (c : Dev nD) (t : Fin cfg2.N) (p : Fin 5000) (n : Fin 128) (hp : t.val * 5000 + p.val < 50000) :
    iblk2 V c 0 t (ix2 p n) = V c main_v58 (ix2 (⟨t.val * 5000 + p.val, hp⟩ : Fin 50000) n) := by
  obtain ⟨e0, e1, -, -, -, -, -, -⟩ := block_indices t
  show V c main_v58 (((cfg2.win 0).blk t).view.emb (ix2 p n)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * n.val = n.val; omega

/-- The weights' block is the whole weight matrix. -/
theorem read_weights (c : Dev nD) (t : Fin cfg2.N) (n : Fin 128) (q : Fin 13) :
    iblk2 V c 1 t (ix2 n q) = V c main_v59 (ix2 n q) := by
  obtain ⟨-, -, e2, e3, -, -, -, -⟩ := block_indices t
  show V c main_v59 (((cfg2.win 1).blk t).view.emb (ix2 n q)) = _
  refine congrArg _ (funext fun a => Fin.ext ?_)
  match a with
  | ⟨0, _⟩ => show win2_1.index t (0 : Fin 2) * 128 + 1 * n.val = n.val; omega
  | ⟨1, _⟩ => show win2_1.index t (1 : Fin 2) * 13 + 1 * q.val = q.val; omega

/-- The bias' block is the whole bias row. -/
theorem read_bias (c : Dev nD) (t : Fin cfg2.N) (q : Fin 13) :
    iblk2 V c 2 t (ix2 (0 : Fin 1) q) = V c main_v60 (ix2 (0 : Fin 1) q) := by
  obtain ⟨-, -, -, -, e4, e5, -, -⟩ := block_indices t
  show V c main_v60 (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 13 + 1 * q.val = q.val; omega

/-- Entry (p, q) of point t's output block is entry (5000·t + p, q) of the output array. -/
theorem out_entry (t : Fin cfg2.N) (p : Fin 5000) (q : Fin 13) (hp : t.val * 5000 + p.val < 50000) :
    ((cfg2.win 3).blk t).view.emb (ix2 p q) = ix2 (⟨t.val * 5000 + p.val, hp⟩ : Fin 50000) q := by
  obtain ⟨-, -, -, -, -, -, e6, e7⟩ := block_indices t
  refine funext fun a => Fin.ext ?_
  match a with
  | ⟨0, _⟩ => show win2_3.index t (0 : Fin 2) * 5000 + 1 * p.val = t.val * 5000 + p.val; omega
  | ⟨1, _⟩ => show win2_3.index t (1 : Fin 2) * 13 + 1 * q.val = q.val; omega

/-- What point t writes back is its block of the layer's function of the arrays as the kernel finds them. -/
theorem written (c : Dev nD) (t : Fin cfg2.N) :
    (dat2 V c).flushed 3 t = ((cfg2.win 3).blk t).view.read (Elt Ideal)
      (affine (relu (V c main_v58)) (V c main_v59) (V c main_v60)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x13) zero_offsets,
    View.ld_unit_zero (S := S1x13) zero_offsets]
  rw [Body.linear2]
  refine funext fun (y : S5000x13.Idx) => ?_
  obtain ⟨p, q, rfl⟩ : ∃ (p : Fin 5000) (q : Fin 13), y = ix2 p q := ⟨y 0, y 1, eq_ix2 y⟩
  have hN : grid2.N = 10 := N_2
  have ht : t.val < grid2.N := t.isLt
  rw [hN] at ht
  have hp : t.val * 5000 + p.val < 50000 := by have := p.isLt; omega
  show affine (relu (iblk2 V c 0 t)) (iblk2 V c 1 t) (iblk2 V c 2 t) (ix2 p q)
    = (affine (relu (V c main_v58)) (V c main_v59) (V c main_v60)) (((cfg2.win 3).blk t).view.emb (ix2 p q))
  rw [out_entry t p q hp, affine_apply, affine_apply, read_bias V c t q]
  refine congrArg (· + _) (Finset.sum_congr rfl fun n _ => ?_)
  rw [read_weights V c t n q]
  exact congrArg (fun x : EReal => max x (Ideal.ofBits .f32 0x00000000#32) * V c main_v59 (ix2 n q)) (read_rows V c t p n hp)

/-- An entry of the output array is in point t's block when its row is among the point's five thousand. -/
theorem in_block (t : Fin cfg2.N) (i : S50000x13.Idx) :
    i ∈ ((cfg2.win 3).blk t).view.set ↔ ∀ a : Fin 2, win2_3.index t a * S5000x13.size a ≤ (i a).val
      ∧ (i a).val < win2_3.index t a * S5000x13.size a + S5000x13.size a := by
  show i ∈ ((View.whole main_v61).slice (win2_3.rect t)).set ↔ _
  rw [View.set_slice_whole, Rect.mem_set_unit]
  exact Iff.rfl

/-- Every entry of the output array is in the block of the point its row falls to. -/
theorem tiled (i : S50000x13.Idx) :
    ∃ t : Fin cfg2.N, (cfg2.win 3).flush t = true ∧ i ∈ ((cfg2.win 3).blk t).view.set := by
  have hi0 : (i 0).val < 50000 := (i 0).isLt
  have hi1 : (i 1).val < 13 := (i 1).isLt
  have hN : grid2.N = 10 := N_2
  obtain ⟨t, ht⟩ : ∃ t : Fin cfg2.N, t.val = (i 0).val / 5000 :=
    ⟨⟨(i 0).val / 5000, by show (i 0).val / 5000 < grid2.N; rw [hN]; omega⟩, rfl⟩
  obtain ⟨-, -, -, -, -, -, e6, e7⟩ := block_indices t
  refine ⟨t, flush2_3 t, ?_⟩
  rw [in_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 13 ≤ (i 1).val ∧ (i 1).val < win2_3.index t (1 : Fin 2) * 13 + 13
    omega

/-- After the kernel the output array holds the layer's function of the arrays as the kernel found them. -/
theorem array (c : Dev nD) :
    (dat2 V c).arrAt 3 cfg2.N = affine (relu (V c main_v58)) (V c main_v59) (V c main_v60) :=
  (dat2 V c).arrAt_eq_of_cover 3 _ (fun t _ => written V c t) tiled

end Cert.Gcn.Region2

end
-- ==== Proof.Region3.lean ====
/-
  The last kernel: its output array as one function of the arrays it is entered with.

  The grid has twenty-five points; point t works on rows 2000·t … 2000·t + 1999 of the node scores and writes the same
  rows of the output, with the whole constraint matrix at every point.  So what point t writes back is rows 2000·t … of
  ONE function of the two arrays as the kernel finds them, and the twenty-five blocks tile the output.
-/
import proofs.«151181_j34763465294566_1_alg».proof.Proof.Gen.KernelIdeal.Frame
import proofs.«151181_j34763465294566_1_alg».proof.Proof.KernelBody

set_option maxRecDepth 16384

noncomputable section

namespace Cert.Gcn.Region3

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the scores' and the output's row block is the point's number, every other block
    index is zero. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of point t's block of scores is row 2000·t + p of the scores. -/
theorem read_rows (c : Dev nD) (t : Fin cfg3.N) (p : Fin 2000) (k : Fin 13) (hp : t.val * 2000 + p.val < 50000) :
    iblk3 V c 0 t (ix2 p k) = V c main_v74 (ix2 (⟨t.val * 2000 + p.val, hp⟩ : Fin 50000) k) := by
  obtain ⟨e0, e1, -, -, -, -⟩ := block_indices t
  show V c main_v74 (((cfg3.win 0).blk t).view.emb (ix2 p k)) = _
  refine congrArg _ (funext fun a => Fin.ext ?_)
  match a with
  | ⟨0, _⟩ => show win3_0.index t (0 : Fin 2) * 2000 + 1 * p.val = t.val * 2000 + p.val; omega
  | ⟨1, _⟩ => show win3_0.index t (1 : Fin 2) * 13 + 1 * k.val = k.val; omega

/-- The constraint matrix' block is the whole matrix. -/
theorem read_matrix (c : Dev nD) (t : Fin cfg3.N) (i k : Fin 13) :
    iblk3 V c 1 t (ix2 i k) = V c main_arg2 (ix2 i k) := by
  obtain ⟨-, -, e2, e3, -, -⟩ := block_indices t
  show V c main_arg2 (((cfg3.win 1).blk t).view.emb (ix2 i k)) = _
  refine congrArg _ (funext fun a => Fin.ext ?_)
  match a with
  | ⟨0, _⟩ => show win3_1.index t (0 : Fin 2) * 13 + 1 * i.val = i.val; omega
  | ⟨1, _⟩ => show win3_1.index t (1 : Fin 2) * 13 + 1 * k.val = k.val; omega

/-- Entry (p, i) of point t's output block is entry (2000·t + p, i) of the output array. -/
theorem out_entry (t : Fin cfg3.N) (p : Fin 2000) (i : Fin 13) (hp : t.val * 2000 + p.val < 50000) :
    ((cfg3.win 2).blk t).view.emb (ix2 p i) = ix2 (⟨t.val * 2000 + p.val, hp⟩ : Fin 50000) i := by
  obtain ⟨-, -, -, -, e4, e5⟩ := block_indices t
  refine funext fun a => Fin.ext ?_
  match a with
  | ⟨0, _⟩ => show win3_2.index t (0 : Fin 2) * 2000 + 1 * p.val = t.val * 2000 + p.val; omega
  | ⟨1, _⟩ => show win3_2.index t (1 : Fin 2) * 13 + 1 * i.val = i.val; omega

/-- What point t writes back is its block of the constrained output of the arrays as the kernel finds them. -/
theorem written (c : Dev nD) (t : Fin cfg3.N) :
    (dat3 V c).flushed 2 t = ((cfg3.win 2).blk t).view.read (Elt Ideal)
      (constrained (V c main_v74) (V c main_arg2)) := by
  show (cfg3.win 2).cut (grid3.coords t) ((dat3 V c).after 2 t) = _
  rw [after3_2]
  unfold out3_2
  rw [View.canon_unit_zero zero_offsets]
  simp only [View.ld_unit_zero (S := S2000x13) zero_offsets, View.ld_unit_zero (S := S13x13) zero_offsets]
  rw [Body.final3]
  refine funext fun (y : S2000x13.Idx) => ?_
  obtain ⟨p, i, rfl⟩ : ∃ (p : Fin 2000) (i : Fin 13), y = ix2 p i := ⟨y 0, y 1, eq_ix2 y⟩
  have hN : grid3.N = 25 := N_3
  have ht : t.val < grid3.N := t.isLt
  rw [hN] at ht
  have hp : t.val * 2000 + p.val < 50000 := by have := p.isLt; omega
  show constrained (iblk3 V c 0 t) (iblk3 V c 1 t) (ix2 p i)
    = (constrained (V c main_v74) (V c main_arg2)) (((cfg3.win 2).blk t).view.emb (ix2 p i))
  rw [out_entry t p i hp, constrained_apply, constrained_apply]
  refine congrArg (fun f => Finset.fold max (Ideal.ofBits .f32 0xFF800000#32) f (Finset.univ : Finset (Fin 13))) ?_
  funext k
  show Ideal.logistic (iblk3 V c 0 t (ix2 p k)) * iblk3 V c 1 t (ix2 i k) = _
  rw [read_rows V c t p k hp, read_matrix V c t i k]

/-- An entry of the output array is in point t's block when its row is among the point's two thousand. -/
theorem in_block (t : Fin cfg3.N) (i : S50000x13.Idx) :
    i ∈ ((cfg3.win 2).blk t).view.set ↔ ∀ a : Fin 2, win3_2.index t a * S2000x13.size a ≤ (i a).val
      ∧ (i a).val < win3_2.index t a * S2000x13.size a + S2000x13.size a := by
  show i ∈ ((View.whole main_v75).slice (win3_2.rect t)).set ↔ _
  rw [View.set_slice_whole, Rect.mem_set_unit]
  exact Iff.rfl

/-- Every entry of the output array is in the block of the point its row falls to. -/
theorem tiled (i : S50000x13.Idx) :
    ∃ t : Fin cfg3.N, (cfg3.win 2).flush t = true ∧ i ∈ ((cfg3.win 2).blk t).view.set := by
  have hi0 : (i 0).val < 50000 := (i 0).isLt
  have hi1 : (i 1).val < 13 := (i 1).isLt
  have hN : grid3.N = 25 := N_3
  obtain ⟨t, ht⟩ : ∃ t : Fin cfg3.N, t.val = (i 0).val / 2000 :=
    ⟨⟨(i 0).val / 2000, by show (i 0).val / 2000 < grid3.N; rw [hN]; omega⟩, rfl⟩
  obtain ⟨-, -, -, -, e4, e5⟩ := block_indices t
  refine ⟨t, flush3_2 t, ?_⟩
  rw [in_block]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 13 ≤ (i 1).val ∧ (i 1).val < win3_2.index t (1 : Fin 2) * 13 + 13
    omega

/-- After the kernel the output array holds the constrained output of the arrays as the kernel found them. -/
theorem array (c : Dev nD) :
    (dat3 V c).arrAt 2 cfg3.N = constrained (V c main_v74) (V c main_arg2) :=
  (dat3 V c).arrAt_eq_of_cover 2 _ (fun t _ => written V c t) tiled

end Cert.Gcn.Region3

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«151181_j34763465294566_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibHostLayer.lean ====
/-
  A dense layer on the host, read at an index.

  `x @ W + b` for a batch x of E rows of N numbers, a weight matrix W laid out [N, Q] and a bias vector b of Q numbers
  lowers to a `dot_general` contracting x's second axis with W's first, and b broadcast first to one row [1, Q] and
  then along the E rows.  Over the extended reals entry (e, q) of the result is  Σ n, x (e, n) * W (n, q) + b q.
-/
import proofs.«151181_j34763465294566_1_alg».proof.Proof.LibDenseHost
import Idealize.ShloMosaic.Lib.Pipeline.Value

set_option maxRecDepth 16384

noncomputable section

open scoped BigOperators

namespace Idealize.ShloMosaic.HostLayer

open Idealize.ShloMosaic Idealize.ShloMosaic.ValueIdx Idealize.ShloMosaic.DenseBlock

/-- A bias vector broadcast to one row and then along the rows, at (e, q). -/
theorem bias_apply {E Q : ℕ} (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    broadcastInDim ⟨2, ![E, Q]⟩ ![0, 1] h2 (broadcastInDim ⟨2, ![1, Q]⟩ ![1] h1 b) (ix2 e q) = b (ix1 q) := by
  have hq := q.isLt
  rw [broadcastInDim_apply ![0, 1] h2 _ (ix2 e q) (ix2 (0 : Fin 1) q) (fun a => by
      match a with
      | ⟨0, _⟩ => show (0 : ℕ) = if (1 : ℕ) = 1 then 0 else e.val; simp
      | ⟨1, _⟩ => show q.val = if Q = 1 then 0 else q.val; split <;> omega),
    broadcastInDim_apply ![1] h1 _ (ix2 (0 : Fin 1) q) (ix1 q) (fun a => by
      match a with
      | ⟨0, _⟩ => show q.val = if Q = 1 then 0 else q.val; split <;> omega)]

/-- One layer on the host: a product and a broadcast bias, at (e, q). -/
theorem layer_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    addf (Host.dotGeneral (mmDims E N Q wf) none X W)
        (broadcastInDim ⟨2, ![E, Q]⟩ ![0, 1] h2 (broadcastInDim ⟨2, ![1, Q]⟩ ![1] h1 b)) (ix2 e q)
      = (∑ n : Fin N, X (ix2 e n) * W (ix2 n q)) + b (ix1 q) := by
  show FloatOps.dotGeneral (mmDims E N Q wf) none _ X W (ix2 e q)
      + broadcastInDim ⟨2, ![E, Q]⟩ ![0, 1] h2 (broadcastInDim ⟨2, ![1, Q]⟩ ![1] h1 b) (ix2 e q) = _
  rw [dotGeneral_apply_ix2, bias_apply]

end Idealize.ShloMosaic.HostLayer

end
-- ==== Proof.Bridge.lean ====
/-
  The reference's layers and its last step, entry by entry, are the same functions the kernels compute.

  A layer of the reference is a matrix product on the host plus the bias vector laid first as one row and then along
  the rows: entry (e, q) is Σ n, x (e, n) * Wt (n, q) + b q, and a vector read as a one-row matrix has b q at (0, q).
  Before the second and third products the reference clamps at a zero that is broadcast from one word, entry by entry
  the same clamp.  Its last step spells the logistic function out as 1 / (1 + exp (-a)), lays the constraint matrix
  along the nodes and the probabilities along a middle axis, multiplies — the matrix on the left, where the kernel has it
  on the right — and reduces along the last axis with a maximum from -inf.
-/
import proofs.«151181_j34763465294566_1_alg».proof.Proof.Gen.ReferenceIdeal.Read
import proofs.«151181_j34763465294566_1_alg».proof.Proof.LibHostLayer
import proofs.«151181_j34763465294566_1_alg».proof.Proof.Spec
import Idealize.ShloMosaic.Lib.ValueLayout
import Idealize.ShloMosaic.Lib.IdealHost

set_option maxRecDepth 16384

noncomputable section

namespace Cert.Gcn.Bridge

open Idealize.ShloMosaic Idealize.ShloMosaic.ValueIdx
open Cert.ReferenceIdeal Cert.ReferenceIdeal.Gen Cert.ReferenceIdeal.Read

/-- The first layer: the kernel's affine map with the bias vector read as one row is the reference's product plus
    broadcast bias. -/
theorem layer1 (x0 : FVec Ideal S50000x12 .f32) (Wt : FVec Ideal S12x128 .f32) (x4 : FVec Ideal S128 .f32)
    (h : S128.ShapeCasts S1x128) :
    affine x0 Wt (shapeCast S1x128 x4 h)
      = addf (Host.dotGeneral dot_S50000x12_S12x128_S50000x128_1_0_0_1_n_n none x0 Wt) (val_main_v30 (F := Ideal) x4) := by
  funext j
  obtain ⟨p, q, rfl⟩ : ∃ (p : Fin 50000) (q : Fin 128), j = ix2 p q := ⟨j 0, j 1, eq_ix2 j⟩
  rw [affine_apply]
  unfold val_main_v30 val_main_v29
  refine Eq.trans ?_ (HostLayer.layer_apply (E := 50000) (N := 12) (Q := 128) dot_S50000x12_S12x128_S50000x128_1_0_0_1_n_n_wf
    x0 Wt x4 bcast_S128_S1x128_1 bcast_S1x128_S50000x128_0_1 p q).symm
  rw [shapeCast_a_1a_apply]

/-- The second layer, after the clamp at zero. -/
theorem layer2 (H : FVec Ideal S50000x128 .f32) (Wt : FVec Ideal S128x128 .f32) (x6 : FVec Ideal S128 .f32)
    (h : S128.ShapeCasts S1x128) :
    affine (relu H) Wt (shapeCast S1x128 x6 h)
      = addf (Host.dotGeneral dot_S50000x128_S128x128_S50000x128_1_0_0_1_n_n none
          (maximumf H (val_main_call0_v0 (F := Ideal))) Wt) (val_main_v49 (F := Ideal) x6) := by
  funext j
  obtain ⟨p, q, rfl⟩ : ∃ (p : Fin 50000) (q : Fin 128), j = ix2 p q := ⟨j 0, j 1, eq_ix2 j⟩
  rw [affine_apply]
  unfold val_main_v49 val_main_v48
  refine Eq.trans ?_ (HostLayer.layer_apply (E := 50000) (N := 128) (Q := 128) dot_S50000x128_S128x128_S50000x128_1_0_0_1_n_n_wf
    (maximumf H (val_main_call0_v0 (F := Ideal))) Wt x6 bcast_S128_S1x128_1 bcast_S1x128_S50000x128_0_1 p q).symm
  rw [shapeCast_a_1a_apply]
  rfl

/-- The third layer, after the clamp at zero. -/
theorem layer3 (H : FVec Ideal S50000x128 .f32) (Wt : FVec Ideal S128x13 .f32) (x8 : FVec Ideal S13 .f32)
    (h : S13.ShapeCasts S1x13) :
    affine (relu H) Wt (shapeCast S1x13 x8 h)
      = addf (Host.dotGeneral dot_S50000x128_S128x13_S50000x13_1_0_0_1_n_n none
          (maximumf H (val_main_call1_v0 (F := Ideal))) Wt) (val_main_v68 (F := Ideal) x8) := by
  funext j
  obtain ⟨p, q, rfl⟩ : ∃ (p : Fin 50000) (q : Fin 13), j = ix2 p q := ⟨j 0, j 1, eq_ix2 j⟩
  rw [affine_apply]
  unfold val_main_v68 val_main_v67
  refine Eq.trans ?_ (HostLayer.layer_apply (E := 50000) (N := 128) (Q := 13) dot_S50000x128_S128x13_S50000x13_1_0_0_1_n_n_wf
    (maximumf H (val_main_call1_v0 (F := Ideal))) Wt x8 bcast_S13_S1x13_1 bcast_S1x13_S50000x13_0_1 p q).symm
  rw [shapeCast_a_1a_apply]
  rfl

/-- The reduced index (p, i) with the class j put back on the last axis is (p, i, j). -/
theorem lift_last (hr : S50000x13x13.Reduces [2] S50000x13) (p : Fin 50000) (i : Fin 13)
    (k : Fin (S50000x13x13.size (2 : Fin 3))) :
    hr.lift (ix2 p i) k = ix3 p i (⟨k.val, k.isLt⟩ : Fin 13) := by
  funext c; apply Fin.ext
  fin_cases c <;> rfl

/-- The constraint matrix laid along the nodes: entry (p, i, j) is entry (i, j). -/
theorem matrix_along (x2 : FVec Ideal S13x13 .f32) (p : Fin 50000) (i j : Fin 13) :
    val_main_v91 (F := Ideal) x2 (ix3 p i j) = x2 (ix2 i j) := by
  rw [val_main_v91_apply, val_main_v89_apply]
  refine congrArg x2 (funext fun a => Fin.ext ?_)
  match a with
  | ⟨0, _⟩ => rfl
  | ⟨1, _⟩ => rfl

/-- A node-by-class array laid along a new middle axis: entry (p, i, j) is entry (p, j). -/
theorem rows_along (S : FVec Ideal S50000x13 .f32) (p : Fin 50000) (i j : Fin 13) :
    broadcastInDim S50000x13x13 ![0, 1, 2] bcast_S50000x1x13_S50000x13x13_0_1_2
      (broadcastInDim S50000x1x13 ![0, 2] bcast_S50000x13_S50000x1x13_0_2 S) (ix3 p i j) = S (ix2 p j) := by
  rw [broadcastInDim_apply ![0, 1, 2] bcast_S50000x1x13_S50000x13x13_0_1_2 _ (ix3 p i j) (ix3 p (0 : Fin 1) j) (fun a => by
      match a with
      | ⟨0, _⟩ => show p.val = if (50000 : Nat) = 1 then 0 else p.val; rw [if_neg (by decide)]
      | ⟨1, _⟩ => show 0 = if (1 : Nat) = 1 then 0 else i.val; rw [if_pos rfl]
      | ⟨2, _⟩ => show j.val = if (13 : Nat) = 1 then 0 else j.val; rw [if_neg (by decide)]),
    broadcastInDim_apply ![0, 2] bcast_S50000x13_S50000x1x13_0_2 _ (ix3 p (0 : Fin 1) j) (ix2 p j) (fun a => by
      match a with
      | ⟨0, _⟩ => show p.val = if (50000 : Nat) = 1 then 0 else p.val; rw [if_neg (by decide)]
      | ⟨1, _⟩ => show j.val = if (13 : Nat) = 1 then 0 else j.val; rw [if_neg (by decide)])]

/-- One over one plus the exponential of the negative is the logistic function, entry by entry. -/
theorem probability (A : FVec Ideal S50000x13 .f32) (p : Fin 50000) (j : Fin 13) :
    Host.divf (val_main_v87 (F := Ideal)) (addf (val_main_v85 (F := Ideal)) (Host.exp (Host.negf A))) (ix2 p j)
      = Ideal.logistic (A (ix2 p j)) := by
  show FloatOps.hostDivf (Ideal.ofBits .f32 0x3F800000#32)
      (FloatOps.addf (Ideal.ofBits .f32 0x3F800000#32) (FloatOps.hostUnary .exp (FloatOps.hostNegf (A (ix2 p j))))) = _
  rw [Ideal.ofBits_one_f32]
  rfl

theorem reduces_last : S50000x13x13.Reduces [2] S50000x13 := by decide

/-- The reference's last step is the constrained output of the node scores it is applied to. -/
theorem tail (A : FVec Ideal S50000x13 .f32) (x2 : FVec Ideal S13x13 .f32) :
    constrained A x2
      = Host.reduce FloatOps.maximumf
          (mulf (val_main_v91 (F := Ideal) x2)
            (broadcastInDim S50000x13x13 ![0, 1, 2] bcast_S50000x1x13_S50000x13x13_0_1_2
              (broadcastInDim S50000x1x13 ![0, 2] bcast_S50000x13_S50000x1x13_0_2
                (Host.divf (val_main_v87 (F := Ideal)) (addf (val_main_v85 (F := Ideal)) (Host.exp (Host.negf A)))))))
          (val_main_cst_15 (F := Ideal)) reducesTo_S50000x13x13_S50000x13_d2 h_S_ := by
  funext j
  obtain ⟨p, i, rfl⟩ : ∃ (p : Fin 50000) (i : Fin 13), j = ix2 p i := ⟨j 0, j 1, eq_ix2 j⟩
  rw [constrained_apply]
  refine Eq.trans ?_ (Host.reduce_eq_fold_single FloatOps.maximumf _ _ reducesTo_S50000x13x13_S50000x13_d2 reduces_last h_S_ (ix2 p i)).symm
  refine congrArg (fun f => Finset.fold max (Ideal.ofBits .f32 0xFF800000#32) f
    (Finset.univ : Finset (Fin (S50000x13x13.size (2 : Fin 3))))) ?_
  funext k
  show _ = (mulf (val_main_v91 (F := Ideal) x2)
            (broadcastInDim S50000x13x13 ![0, 1, 2] bcast_S50000x1x13_S50000x13x13_0_1_2
              (broadcastInDim S50000x1x13 ![0, 2] bcast_S50000x13_S50000x1x13_0_2
                (Host.divf (val_main_v87 (F := Ideal)) (addf (val_main_v85 (F := Ideal)) (Host.exp (Host.negf A)))))))
      (reduces_last.lift (ix2 p i) k)
  rw [lift_last reduces_last p i k]
  show _ = val_main_v91 (F := Ideal) x2 (ix3 p i (⟨k.val, k.isLt⟩ : Fin 13))
      * broadcastInDim S50000x13x13 ![0, 1, 2] bcast_S50000x1x13_S50000x13x13_0_1_2
          (broadcastInDim S50000x1x13 ![0, 2] bcast_S50000x13_S50000x1x13_0_2
            (Host.divf (val_main_v87 (F := Ideal)) (addf (val_main_v85 (F := Ideal)) (Host.exp (Host.negf A)))))
          (ix3 p i (⟨k.val, k.isLt⟩ : Fin 13))
  rw [matrix_along x2 p i ⟨k.val, k.isLt⟩, rows_along _ p i ⟨k.val, k.isLt⟩, probability A p ⟨k.val, k.isLt⟩]
  exact mul_comm _ _

end Cert.Gcn.Bridge

end
-- ==== Proof.KernelFold.lean ====
/-
  The idealized kernel program's buffers at each segment boundary, as functions of the arrays it is launched with.

  @main alternates stretches of host operations with the four kernels.  The first stretch builds, from the edge list, the
  row and column words of every edge (self-loops appended) and the edge weights, and lays out the first layer's weights
  and bias; each later stretch gathers the previous kernel's output rows by the row words, scales them by the edge
  weights and adds them up by the column words, and lays out the next layer's weights and bias.  These are the reference's
  own operations, so each boundary buffer is the reference's stage of the same name of the launch arrays: a host
  stretch by reading its operations off, a kernel's output by what the kernel computes (an affine layer, or the
  constrained output) meeting the reference's layer or last step.
  A buffer that no kernel has as an array and no later host operation writes keeps its contents across the segments.
-/
import proofs.«151181_j34763465294566_1_alg».proof.Proof.Gen.KernelIdeal.Frame
import proofs.«151181_j34763465294566_1_alg».proof.Proof.Gen.ReferenceIdeal.Read
import proofs.«151181_j34763465294566_1_alg».proof.Proof.Region0
import proofs.«151181_j34763465294566_1_alg».proof.Proof.Region1
import proofs.«151181_j34763465294566_1_alg».proof.Proof.Region2
import proofs.«151181_j34763465294566_1_alg».proof.Proof.Region3
import proofs.«151181_j34763465294566_1_alg».proof.Proof.Bridge

set_option maxRecDepth 16384

noncomputable section

namespace Cert.Gcn.Fold

open Idealize.ShloMosaic Idealize.ShloMosaic.TcCoe Idealize.ShloMosaic.StableHlo Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-- An array as launched. -/
abbrev arg (b : Ref sig .tc) : Buf (Elt Ideal) ((c : Thread nD τ).loc b) := m ((c : Thread nD τ).loc b)

/-- No operation of a host stretch writes the buffer: its contents pass through the stretch. -/
macro "passes_stretch" : tactic => `(tactic| (
  refine StableHlo.after_of_forall_not_mem _ _ (List.forall_iff_forall_mem.mp ?_)
  simp only [hostOps0, hostOps1, hostOps2, hostOps3, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## The first stretch: the graph's words and weights, the first layer's operands -/

theorem nodes1 : V1 m ρ c main_arg0 = arg m c main_arg0 := by
  show StableHlo.after hostOps0 (W0 m ρ c) (Proc.devRef .tc main_arg0) = _
  passes_stretch

theorem rows1 : W1 m ρ c (Proc.devRef .tc main_v3) = val_main_v3 (F := Ideal) (arg m c main_arg1) := by
  show StableHlo.after hostOps0 (W0 m ρ c) (Proc.devRef .tc main_v3) = _
  after_results
  rfl

theorem cols1 : W1 m ρ c (Proc.devRef .tc main_v6) = val_main_v6 (F := Ideal) (arg m c main_arg1) := by
  show StableHlo.after hostOps0 (W0 m ρ c) (Proc.devRef .tc main_v6) = _
  after_results
  rfl

set_option maxHeartbeats 1000000 in
theorem weights1 : W1 m ρ c (Proc.devRef .tc main_v26) = val_main_v26 (F := Ideal) (arg m c main_arg1) := by
  show StableHlo.after hostOps0 (W0 m ρ c) (Proc.devRef .tc main_v26) = _
  after_results_simp
  rfl

theorem matrix1 : V1 m ρ c main_v27 = val_main_v27 (F := Ideal) (arg m c main_arg3) := by
  show StableHlo.after hostOps0 (W0 m ρ c) (Proc.devRef .tc main_v27) = _
  after_results
  rfl

theorem bias1 : V1 m ρ c main_v28 = shapeCast S1x128 (arg m c main_arg4) shapeCasts_S128_S1x128 := by
  show StableHlo.after hostOps0 (W0 m ρ c) (Proc.devRef .tc main_v28) = _
  after_results
  rfl

/-! ## The first kernel -/

theorem layer1 : W2 m ρ c (Proc.devRef .tc main_v29) = val_main_v31 (F := Ideal) (arg m c main_arg0) (arg m c main_arg3) (arg m c main_arg4) :=
  (W2_arr m ρ c 3).trans ((Region0.array (V1 m ρ) c).trans
    ((affine_congr (nodes1 m ρ c) (matrix1 m ρ c) (bias1 m ρ c)).trans
      ((Bridge.layer1 (arg m c main_arg0) (val_main_v27 (F := Ideal) (arg m c main_arg3)) (arg m c main_arg4) shapeCasts_S128_S1x128).trans (by unfold val_main_v31 val_main_v28; rfl))))

/-! ## What the first kernel leaves alone -/

theorem rows2 : W2 m ρ c (Proc.devRef .tc main_v3) = val_main_v3 (F := Ideal) (arg m c main_arg1) :=
  (W2_of_ne m ρ c main_v3 (by decide)).trans (rows1 m ρ c)
theorem cols2 : W2 m ρ c (Proc.devRef .tc main_v6) = val_main_v6 (F := Ideal) (arg m c main_arg1) :=
  (W2_of_ne m ρ c main_v6 (by decide)).trans (cols1 m ρ c)
theorem weights2 : W2 m ρ c (Proc.devRef .tc main_v26) = val_main_v26 (F := Ideal) (arg m c main_arg1) :=
  (W2_of_ne m ρ c main_v26 (by decide)).trans (weights1 m ρ c)

/-- An argument no segment up to the second kernel writes. -/
theorem arg2_of (b : Ref sig .tc) (h0 : ∀ w, Pipeline.arrRef spec0 w ≠ b)
    (g0 : StableHlo.after hostOps0 (W0 m ρ c) (Proc.devRef .tc b) = W0 m ρ c (Proc.devRef .tc b)) :
    W2 m ρ c (Proc.devRef .tc b) = arg m c b :=
  (W2_of_ne m ρ c b h0).trans g0

/-! ## The second stretch and the second kernel -/

set_option maxHeartbeats 1000000 in
theorem summed2 : W3 m ρ c (Proc.devRef .tc main_v42) = val_main_v44 (F := Ideal) (arg m c main_arg0) (arg m c main_arg1) (arg m c main_arg3) (arg m c main_arg4) := by
  show StableHlo.after hostOps1 (W2 m ρ c) (Proc.devRef .tc main_v42) = _
  after_results_simp
  rw [layer1 m ρ c, rows2 m ρ c, cols2 m ρ c, weights2 m ρ c]
  rfl

theorem matrix2 : V3 m ρ c main_v43 = val_main_v46 (F := Ideal) (arg m c main_arg5) := by
  show StableHlo.after hostOps1 (W2 m ρ c) (Proc.devRef .tc main_v43) = _
  after_results
  rw [arg2_of m ρ c main_arg5 (by decide) (by passes_stretch)]
  rfl

theorem bias2 : V3 m ρ c main_v44 = shapeCast S1x128 (arg m c main_arg6) shapeCasts_S128_S1x128 := by
  show StableHlo.after hostOps1 (W2 m ρ c) (Proc.devRef .tc main_v44) = _
  after_results
  rw [arg2_of m ρ c main_arg6 (by decide) (by passes_stretch)]
  rfl

theorem layer2 : W4 m ρ c (Proc.devRef .tc main_v45) = val_main_v50 (F := Ideal) (arg m c main_arg0) (arg m c main_arg1) (arg m c main_arg3) (arg m c main_arg4) (arg m c main_arg5) (arg m c main_arg6) :=
  (W4_arr m ρ c 3).trans ((Region1.array (V3 m ρ) c).trans
    ((affine_congr (relu_congr (summed2 m ρ c)) (matrix2 m ρ c) (bias2 m ρ c)).trans
      ((Bridge.layer2 (val_main_v44 (F := Ideal) (arg m c main_arg0) (arg m c main_arg1) (arg m c main_arg3) (arg m c main_arg4)) (val_main_v46 (F := Ideal) (arg m c main_arg5)) (arg m c main_arg6) shapeCasts_S128_S1x128).trans
        (by unfold val_main_v50 val_main_v47 val_main_v45; rfl))))

theorem rows4 : W4 m ρ c (Proc.devRef .tc main_v3) = val_main_v3 (F := Ideal) (arg m c main_arg1) :=
  (W4_of_ne m ρ c main_v3 (by decide)).trans
    ((by passes_stretch : StableHlo.after hostOps1 (W2 m ρ c) (Proc.devRef .tc main_v3) = W2 m ρ c (Proc.devRef .tc main_v3)).trans (rows2 m ρ c))
theorem cols4 : W4 m ρ c (Proc.devRef .tc main_v6) = val_main_v6 (F := Ideal) (arg m c main_arg1) :=
  (W4_of_ne m ρ c main_v6 (by decide)).trans
    ((by passes_stretch : StableHlo.after hostOps1 (W2 m ρ c) (Proc.devRef .tc main_v6) = W2 m ρ c (Proc.devRef .tc main_v6)).trans (cols2 m ρ c))
theorem weights4 : W4 m ρ c (Proc.devRef .tc main_v26) = val_main_v26 (F := Ideal) (arg m c main_arg1) :=
  (W4_of_ne m ρ c main_v26 (by decide)).trans
    ((by passes_stretch : StableHlo.after hostOps1 (W2 m ρ c) (Proc.devRef .tc main_v26) = W2 m ρ c (Proc.devRef .tc main_v26)).trans (weights2 m ρ c))

/-- An argument no segment up to the third kernel writes. -/
theorem arg4_of (b : Ref sig .tc) (h0 : ∀ w, Pipeline.arrRef spec0 w ≠ b) (h1 : ∀ w, Pipeline.arrRef spec1 w ≠ b)
    (g0 : StableHlo.after hostOps0 (W0 m ρ c) (Proc.devRef .tc b) = W0 m ρ c (Proc.devRef .tc b))
    (g1 : StableHlo.after hostOps1 (W2 m ρ c) (Proc.devRef .tc b) = W2 m ρ c (Proc.devRef .tc b)) :
    W4 m ρ c (Proc.devRef .tc b) = arg m c b :=
  (W4_of_ne m ρ c b h1).trans (g1.trans (arg2_of m ρ c b h0 g0))

/-! ## The third stretch and the third kernel -/

set_option maxHeartbeats 1000000 in
theorem summed3 : W5 m ρ c (Proc.devRef .tc main_v58) = val_main_v63 (F := Ideal) (arg m c main_arg0) (arg m c main_arg1) (arg m c main_arg3) (arg m c main_arg4) (arg m c main_arg5) (arg m c main_arg6) := by
  show StableHlo.after hostOps2 (W4 m ρ c) (Proc.devRef .tc main_v58) = _
  after_results_simp
  rw [layer2 m ρ c, rows4 m ρ c, cols4 m ρ c, weights4 m ρ c]
  rfl

theorem matrix3 : V5 m ρ c main_v59 = val_main_v65 (F := Ideal) (arg m c main_arg7) := by
  show StableHlo.after hostOps2 (W4 m ρ c) (Proc.devRef .tc main_v59) = _
  after_results
  rw [arg4_of m ρ c main_arg7 (by decide) (by decide) (by passes_stretch) (by passes_stretch)]
  rfl

theorem bias3 : V5 m ρ c main_v60 = shapeCast S1x13 (arg m c main_arg8) shapeCasts_S13_S1x13 := by
  show StableHlo.after hostOps2 (W4 m ρ c) (Proc.devRef .tc main_v60) = _
  after_results
  rw [arg4_of m ρ c main_arg8 (by decide) (by decide) (by passes_stretch) (by passes_stretch)]
  rfl

theorem layer3 : W6 m ρ c (Proc.devRef .tc main_v61) = val_main_v69 (F := Ideal) (arg m c main_arg0) (arg m c main_arg1) (arg m c main_arg3) (arg m c main_arg4) (arg m c main_arg5) (arg m c main_arg6) (arg m c main_arg7) (arg m c main_arg8) :=
  (W6_arr m ρ c 3).trans ((Region2.array (V5 m ρ) c).trans
    ((affine_congr (relu_congr (summed3 m ρ c)) (matrix3 m ρ c) (bias3 m ρ c)).trans
      ((Bridge.layer3 (val_main_v63 (F := Ideal) (arg m c main_arg0) (arg m c main_arg1) (arg m c main_arg3) (arg m c main_arg4) (arg m c main_arg5) (arg m c main_arg6)) (val_main_v65 (F := Ideal) (arg m c main_arg7)) (arg m c main_arg8) shapeCasts_S13_S1x13).trans
        (by unfold val_main_v69 val_main_v66 val_main_v64; rfl))))

theorem rows6 : W6 m ρ c (Proc.devRef .tc main_v3) = val_main_v3 (F := Ideal) (arg m c main_arg1) :=
  (W6_of_ne m ρ c main_v3 (by decide)).trans
    ((by passes_stretch : StableHlo.after hostOps2 (W4 m ρ c) (Proc.devRef .tc main_v3) = W4 m ρ c (Proc.devRef .tc main_v3)).trans (rows4 m ρ c))
theorem cols6 : W6 m ρ c (Proc.devRef .tc main_v6) = val_main_v6 (F := Ideal) (arg m c main_arg1) :=
  (W6_of_ne m ρ c main_v6 (by decide)).trans
    ((by passes_stretch : StableHlo.after hostOps2 (W4 m ρ c) (Proc.devRef .tc main_v6) = W4 m ρ c (Proc.devRef .tc main_v6)).trans (cols4 m ρ c))
theorem weights6 : W6 m ρ c (Proc.devRef .tc main_v26) = val_main_v26 (F := Ideal) (arg m c main_arg1) :=
  (W6_of_ne m ρ c main_v26 (by decide)).trans
    ((by passes_stretch : StableHlo.after hostOps2 (W4 m ρ c) (Proc.devRef .tc main_v26) = W4 m ρ c (Proc.devRef .tc main_v26)).trans (weights4 m ρ c))

/-! ## The last stretch and the last kernel -/

set_option maxHeartbeats 1000000 in
theorem summed4 : V7 m ρ c main_v74 = val_main_v82 (F := Ideal) (arg m c main_arg0) (arg m c main_arg1) (arg m c main_arg3) (arg m c main_arg4) (arg m c main_arg5) (arg m c main_arg6) (arg m c main_arg7) (arg m c main_arg8) := by
  show StableHlo.after hostOps3 (W6 m ρ c) (Proc.devRef .tc main_v74) = _
  after_results_simp
  rw [layer3 m ρ c, rows6 m ρ c, cols6 m ρ c, weights6 m ρ c]
  rfl

/-- The constraint matrix reaches the last kernel as launched. -/
theorem constraints4 : V7 m ρ c main_arg2 = arg m c main_arg2 :=
  (by passes_stretch : StableHlo.after hostOps3 (W6 m ρ c) (Proc.devRef .tc main_arg2) = W6 m ρ c (Proc.devRef .tc main_arg2)).trans
    ((W6_of_ne m ρ c main_arg2 (by decide)).trans
      ((by passes_stretch : StableHlo.after hostOps2 (W4 m ρ c) (Proc.devRef .tc main_arg2) = W4 m ρ c (Proc.devRef .tc main_arg2)).trans
        (arg4_of m ρ c main_arg2 (by decide) (by decide) (by passes_stretch) (by passes_stretch))))

/-- THE RESULT: after the last kernel the result buffer holds the reference's result stage of the launch arrays. -/
theorem result : W8 m ρ c (Proc.devRef .tc main_v75) = val_main_v94 (F := Ideal) (arg m c main_arg0) (arg m c main_arg1) (arg m c main_arg2) (arg m c main_arg3) (arg m c main_arg4) (arg m c main_arg5) (arg m c main_arg6) (arg m c main_arg7) (arg m c main_arg8) :=
  (W8_arr m ρ c 2).trans ((Region3.array (V7 m ρ) c).trans
    ((constrained_congr (summed4 m ρ c) (constraints4 m ρ c)).trans
      ((Bridge.tail (val_main_v82 (F := Ideal) (arg m c main_arg0) (arg m c main_arg1) (arg m c main_arg3) (arg m c main_arg4) (arg m c main_arg5) (arg m c main_arg6) (arg m c main_arg7) (arg m c main_arg8)) (arg m c main_arg2)).trans
        (by unfold val_main_v94 val_main_v93 val_main_v92 val_main_v90 val_main_v88 val_main_v86 val_main_v84 val_main_v83; rfl))))

end Cert.Gcn.Fold

end
-- ==== Proof.lean ====
/-
  A three-layer graph-convolution network with a hierarchy-constrained output, as four kernels among host operations,
  against its plain reference: over the extended reals the two programs compute the same array.

  Both programs build the same edge words and edge weights from the edge list and aggregate node features the same
  way — gather rows by the source words, scale by the weights, add up by the target words — so those steps are the same
  operations applied to equal arrays.  What differs is how a layer is computed: the reference multiplies the whole
  feature matrix by the transposed weights on the host and adds the broadcast bias; the kernel walks blocks of five
  thousand rows, narrows both factors (the identity over the extended reals), multiplies into a zero accumulator and
  adds the bias row, clamping its input at zero first in the second and third layers where the reference clamps
  beforehand.  Entry by entry both are Σ n, x (e, n) * Wt (n, q) + b q.  At the end the kernel applies the logistic
  function and takes, block of two thousand rows by block, the row maximum of probabilities times constraint entries; the
  reference spells the logistic function as 1 / (1 + exp (-a)), multiplies with the factors the other way round, and reduces
  with a maximum from the same -inf.  A product of extended reals commutes.  Nothing here needs the inputs finite.

  The idealization rewrote no operation, so there is nothing to preserve beyond the program's own text.
-/
import proofs.«151181_j34763465294566_1_alg».proof.Defs
import proofs.«151181_j34763465294566_1_alg».proof.Proof.Gen.Kernel
import proofs.«151181_j34763465294566_1_alg».proof.Proof.Gen.Kernel.Skeleton
import proofs.«151181_j34763465294566_1_alg».proof.Proof.Gen.Kernel.Launch
import proofs.«151181_j34763465294566_1_alg».proof.Proof.Gen.Kernel.Points
import proofs.«151181_j34763465294566_1_alg».proof.Proof.Gen.Kernel.Frame
import proofs.«151181_j34763465294566_1_alg».proof.Proof.Gen.KernelIdeal
import proofs.«151181_j34763465294566_1_alg».proof.Proof.Gen.KernelIdeal.Skeleton
import proofs.«151181_j34763465294566_1_alg».proof.Proof.Gen.KernelIdeal.Launch
import proofs.«151181_j34763465294566_1_alg».proof.Proof.Gen.KernelIdeal.Points
import proofs.«151181_j34763465294566_1_alg».proof.Proof.Gen.KernelIdeal.Frame
import proofs.«151181_j34763465294566_1_alg».proof.Proof.Gen.ReferenceIdeal
import proofs.«151181_j34763465294566_1_alg».proof.Proof.Gen.ReferenceIdeal.Run
import proofs.«151181_j34763465294566_1_alg».proof.Proof.Gen.ReferenceIdeal.Read
import proofs.«151181_j34763465294566_1_alg».proof.Proof.Gen.Pre_finite_inputs
import proofs.«151181_j34763465294566_1_alg».proof.Proof.KernelRun
import proofs.«151181_j34763465294566_1_alg».proof.Proof.KernelFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the result buffer at the reference's result stage of the launch arrays, which agree. -/
theorem algebraic : Cert.algebraic_KernelIdeal_ReferenceIdeal := by
  intro m ρ m' ρ' _ hagree
  refine ⟨fun c => Cert.KernelIdeal.Gen.W8 m ρ c (Proc.devRef .tc Cert.KernelIdeal.main_v75),
    Cert.Gcn.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.Gcn.Fold.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
